-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2560 : Shape := ⟨2, ![8192, 2560]⟩
abbrev S8192x4x2560 : Shape := ⟨3, ![8192, 4, 2560]⟩
abbrev S8192x4x1 : Shape := ⟨3, ![8192, 4, 1]⟩
abbrev S8192x4x4 : Shape := ⟨3, ![8192, 4, 4]⟩
abbrev S_ : Shape := ⟨0, ![]⟩

class Facts : Prop where
  bitsLt_bf16_f32 : FTy.bits .bf16 < FTy.bits .f32
  bcast_S_S8192x2560 : S_.BroadcastsInDim S8192x2560 (![] : Fin 0 → Fin S8192x2560.rank)
  reducesTo_S8192x2560_S_d0_1 : S8192x2560.ReducesTo [0, 1] S_
  h_S_ : 0 < S_.numel
  bcast_S_S8192x4x2560 : S_.BroadcastsInDim S8192x4x2560 (![] : Fin 0 → Fin S8192x4x2560.rank)
  reducesTo_S8192x4x2560_S_d0_1_2 : S8192x4x2560.ReducesTo [0, 1, 2] S_
  bcast_S_S8192x4x1 : S_.BroadcastsInDim S8192x4x1 (![] : Fin 0 → Fin S8192x4x1.rank)
  reducesTo_S8192x4x1_S_d0_1_2 : S8192x4x1.ReducesTo [0, 1, 2] S_
  bcast_S_S8192x4x4 : S_.BroadcastsInDim S8192x4x4 (![] : Fin 0 → Fin S8192x4x4.rank)
  reducesTo_S8192x4x4_S_d0_1_2 : S8192x4x4.ReducesTo [0, 1, 2] S_

variable [Facts]

def fn_part1 {F : FTy → Type} [FloatOps F] (main_v15 : IVec S_ 1) (main_v16 : FVec F S8192x4x4 .f32) (main_cst_4 : FVec F S_ .f32) : IVec S_ 1 :=
  let main_v17 : FVec F S8192x4x4 .f32 := broadcastInDim S8192x4x4 ![] bcast_S_S8192x4x4 main_cst_4
  let main_v18 : IVec S8192x4x4 1 := cmpf .olt main_v16 main_v17
  let main_c_5 : IVec S_ 1 := constantI S_ 1 1#1
  let main_v19 : IVec S_ 1 := (fun x v => Host.reduce IntOp.andi x v reducesTo_S8192x4x4_S_d0_1_2 h_S_) main_v18 main_c_5
  let main_v20 : IVec S_ 1 := andi main_v15 main_v19
  main_v20

def fn {F : FTy → Type} [FloatOps F] (main_arg0 : FVec F S8192x2560 .bf16) (main_arg1 : FVec F S8192x4x2560 .bf16) (main_arg2 : FVec F S8192x4x1 .f32) (main_arg3 : FVec F S8192x4x4 .f32) : IVec S_ 1 :=
  let main_v0 : FVec F S8192x2560 .f32 := (extf .f32 · bitsLt_bf16_f32) main_arg0
  let main_v1 : FVec F S8192x2560 .f32 := Host.absf main_v0
  let main_cst : FVec F S_ .f32 := constant S_ .f32 0x7F800000#32
  let main_v2 : FVec F S8192x2560 .f32 := broadcastInDim S8192x2560 ![] bcast_S_S8192x2560 main_cst
  let main_v3 : IVec S8192x2560 1 := cmpf .olt main_v1 main_v2
  let main_c : IVec S_ 1 := constantI S_ 1 1#1
  let main_v4 : IVec S_ 1 := (fun x v => Host.reduce IntOp.andi x v reducesTo_S8192x2560_S_d0_1 h_S_) main_v3 main_c
  let main_v5 : FVec F S8192x4x2560 .f32 := (extf .f32 · bitsLt_bf16_f32) main_arg1
  let main_v6 : FVec F S8192x4x2560 .f32 := Host.absf main_v5
  let main_cst_0 : FVec F S_ .f32 := constant S_ .f32 0x7F800000#32
  let main_v7 : FVec F S8192x4x2560 .f32 := broadcastInDim S8192x4x2560 ![] bcast_S_S8192x4x2560 main_cst_0
  let main_v8 : IVec S8192x4x2560 1 := cmpf .olt main_v6 main_v7
  let main_c_1 : IVec S_ 1 := constantI S_ 1 1#1
  let main_v9 : IVec S_ 1 := (fun x v => Host.reduce IntOp.andi x v reducesTo_S8192x4x2560_S_d0_1_2 h_S_) main_v8 main_c_1
  let main_v10 : IVec S_ 1 := andi main_v4 main_v9
  let main_v11 : FVec F S8192x4x1 .f32 := Host.absf main_arg2
  let main_cst_2 : FVec F S_ .f32 := constant S_ .f32 0x7F800000#32
  let main_v12 : FVec F S8192x4x1 .f32 := broadcastInDim S8192x4x1 ![] bcast_S_S8192x4x1 main_cst_2
  let main_v13 : IVec S8192x4x1 1 := cmpf .olt main_v11 main_v12
  let main_c_3 : IVec S_ 1 := constantI S_ 1 1#1
  let main_v14 : IVec S_ 1 := (fun x v => Host.reduce IntOp.andi x v reducesTo_S8192x4x1_S_d0_1_2 h_S_) main_v13 main_c_3
  let main_v15 : IVec S_ 1 := andi main_v10 main_v14
  let main_v16 : FVec F S8192x4x4 .f32 := Host.absf main_arg3
  let main_cst_4 : FVec F S_ .f32 := constant S_ .f32 0x7F800000#32
  fn_part1 (F := F) main_v15 main_v16 main_cst_4
-- ==== Kernel.lean ====
abbrev S8192x2560 : Shape := ⟨2, ![8192, 2560]⟩
abbrev S8192x4x2560 : Shape := ⟨3, ![8192, 4, 2560]⟩
abbrev S8192x4x1 : Shape := ⟨3, ![8192, 4, 1]⟩
abbrev S8192x4x4 : Shape := ⟨3, ![8192, 4, 4]⟩
abbrev S64x2560 : Shape := ⟨2, ![64, 2560]⟩
abbrev S64x4x2560 : Shape := ⟨3, ![64, 4, 2560]⟩
abbrev S64x4x1 : Shape := ⟨3, ![64, 4, 1]⟩
abbrev S64x4x4 : Shape := ⟨3, ![64, 4, 4]⟩
abbrev S64x1x2560 : Shape := ⟨3, ![64, 1, 2560]⟩
abbrev S64x1x1 : Shape := ⟨3, ![64, 1, 1]⟩
abbrev S64x1 : Shape := ⟨2, ![64, 1]⟩
abbrev S64x2x2560 : Shape := ⟨3, ![64, 2, 2560]⟩

abbrev nBuf : Space → Nat
  | .hbm => 5
  | .vmem => 10
  | .smem => 0
  | _ => 0

abbrev bufTy : (tb : Table) → Fin (tcTables nBuf tb) → BufTy
  | .hbm, ⟨0, _⟩ => ⟨S8192x2560, .bf16⟩
  | .hbm, ⟨1, _⟩ => ⟨S8192x4x2560, .bf16⟩
  | .hbm, ⟨2, _⟩ => ⟨S8192x4x1, .f32⟩
  | .hbm, ⟨3, _⟩ => ⟨S8192x4x4, .f32⟩
  | .hbm, ⟨4, _⟩ => ⟨S8192x4x2560, .bf16⟩
  | .local _ .vmem, ⟨0, _⟩ => ⟨S64x2560, .bf16⟩
  | .local _ .vmem, ⟨1, _⟩ => ⟨S64x2560, .bf16⟩
  | .local _ .vmem, ⟨2, _⟩ => ⟨S64x4x2560, .bf16⟩
  | .local _ .vmem, ⟨3, _⟩ => ⟨S64x4x2560, .bf16⟩
  | .local _ .vmem, ⟨4, _⟩ => ⟨S64x4x1, .f32⟩
  | .local _ .vmem, ⟨5, _⟩ => ⟨S64x4x1, .f32⟩
  | .local _ .vmem, ⟨6, _⟩ => ⟨S64x4x4, .f32⟩
  | .local _ .vmem, ⟨7, _⟩ => ⟨S64x4x4, .f32⟩
  | .local _ .vmem, ⟨8, _⟩ => ⟨S64x4x2560, .bf16⟩
  | .local _ .vmem, ⟨9, _⟩ => ⟨S64x4x2560, .bf16⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S64x2560_S64x2560_0_0 : ∀ a, (![0, 0] : Fin 2 → Nat) a + S64x2560.size a ≤ S64x2560.size a
  h_S64x2560 : 0 < S64x2560.numel
  bitsLt_bf16_f32 : FTy.bits .bf16 < FTy.bits .f32
  inb_S64x4x2560_S64x1x2560_0_0_0 : ∀ a, (![0, 0, 0] : Fin 3 → Nat) a + S64x1x2560.size a ≤ S64x4x2560.size a
  h_S64x1x2560 : 0 < S64x1x2560.numel
  shapeCasts_S64x1x2560_S64x2560 : S64x1x2560.ShapeCasts S64x2560
  inb_S64x4x2560_S64x1x2560_0_1_0 : ∀ a, (![0, 1, 0] : Fin 3 → Nat) a + S64x1x2560.size a ≤ S64x4x2560.size a
  inb_S64x4x2560_S64x1x2560_0_2_0 : ∀ a, (![0, 2, 0] : Fin 3 → Nat) a + S64x1x2560.size a ≤ S64x4x2560.size a
  inb_S64x4x2560_S64x1x2560_0_3_0 : ∀ a, (![0, 3, 0] : Fin 3 → Nat) a + S64x1x2560.size a ≤ S64x4x2560.size a
  inb_S64x4x1_S64x1x1_0_0_0 : ∀ a, (![0, 0, 0] : Fin 3 → Nat) a + S64x1x1.size a ≤ S64x4x1.size a
  h_S64x1x1 : 0 < S64x1x1.numel
  shapeCasts_S64x1x1_S64x1 : S64x1x1.ShapeCasts S64x1
  broadcasts_S64x1_S64x2560 : S64x1.Broadcasts S64x2560
  inb_S64x4x4_S64x1x1_0_0_0 : ∀ a, (![0, 0, 0] : Fin 3 → Nat) a + S64x1x1.size a ≤ S64x4x4.size a
  inb_S64x4x4_S64x1x1_0_1_0 : ∀ a, (![0, 1, 0] : Fin 3 → Nat) a + S64x1x1.size a ≤ S64x4x4.size a
  inb_S64x4x4_S64x1x1_0_2_0 : ∀ a, (![0, 2, 0] : Fin 3 → Nat) a + S64x1x1.size a ≤ S64x4x4.size a
  inb_S64x4x4_S64x1x1_0_3_0 : ∀ a, (![0, 3, 0] : Fin 3 → Nat) a + S64x1x1.size a ≤ S64x4x4.size a
  shapeCasts_S64x2560_S64x1x2560 : S64x2560.ShapeCasts S64x1x2560
  inb_S64x4x2560_S64x2x2560_0_0_0 : ∀ a, (![0, 0, 0] : Fin 3 → Nat) a + S64x2x2560.size a ≤ S64x4x2560.size a
  h_S64x2x2560 : 0 < S64x2x2560.numel
  slices_S64x2x2560_S64x1x2560_0_0_0 : S64x2x2560.Slices ![0, 0, 0] S64x1x2560
  packedbf16_S64x4x2560_S64x2x2560_0_0_0 : (Rect.unit (s := S64x4x2560) ![0, 0, 0] S64x2x2560.size inb_S64x4x2560_S64x2x2560_0_0_0).PackedRows (EltTy.packing .bf16)
  inb_S64x4x1_S64x1x1_0_1_0 : ∀ a, (![0, 1, 0] : Fin 3 → Nat) a + S64x1x1.size a ≤ S64x4x1.size a
  inb_S64x4x4_S64x1x1_0_0_1 : ∀ a, (![0, 0, 1] : Fin 3 → Nat) a + S64x1x1.size a ≤ S64x4x4.size a
  inb_S64x4x4_S64x1x1_0_1_1 : ∀ a, (![0, 1, 1] : Fin 3 → Nat) a + S64x1x1.size a ≤ S64x4x4.size a
  inb_S64x4x4_S64x1x1_0_2_1 : ∀ a, (![0, 2, 1] : Fin 3 → Nat) a + S64x1x1.size a ≤ S64x4x4.size a
  inb_S64x4x4_S64x1x1_0_3_1 : ∀ a, (![0, 3, 1] : Fin 3 → Nat) a + S64x1x1.size a ≤ S64x4x4.size a
  slices_S64x2x2560_S64x1x2560_0_1_0 : S64x2x2560.Slices ![0, 1, 0] S64x1x2560
  inb_S64x4x1_S64x1x1_0_2_0 : ∀ a, (![0, 2, 0] : Fin 3 → Nat) a + S64x1x1.size a ≤ S64x4x1.size a
  inb_S64x4x4_S64x1x1_0_0_2 : ∀ a, (![0, 0, 2] : Fin 3 → Nat) a + S64x1x1.size a ≤ S64x4x4.size a
  inb_S64x4x4_S64x1x1_0_1_2 : ∀ a, (![0, 1, 2] : Fin 3 → Nat) a + S64x1x1.size a ≤ S64x4x4.size a
  inb_S64x4x4_S64x1x1_0_2_2 : ∀ a, (![0, 2, 2] : Fin 3 → Nat) a + S64x1x1.size a ≤ S64x4x4.size a
  inb_S64x4x4_S64x1x1_0_3_2 : ∀ a, (![0, 3, 2] : Fin 3 → Nat) a + S64x1x1.size a ≤ S64x4x4.size a
  inb_S64x4x2560_S64x2x2560_0_2_0 : ∀ a, (![0, 2, 0] : Fin 3 → Nat) a + S64x2x2560.size a ≤ S64x4x2560.size a
  packedbf16_S64x4x2560_S64x2x2560_0_2_0 : (Rect.unit (s := S64x4x2560) ![0, 2, 0] S64x2x2560.size inb_S64x4x2560_S64x2x2560_0_2_0).PackedRows (EltTy.packing .bf16)
  inb_S64x4x1_S64x1x1_0_3_0 : ∀ a, (![0, 3, 0] : Fin 3 → Nat) a + S64x1x1.size a ≤ S64x4x1.size a
  inb_S64x4x4_S64x1x1_0_0_3 : ∀ a, (![0, 0, 3] : Fin 3 → Nat) a + S64x1x1.size a ≤ S64x4x4.size a
  inb_S64x4x4_S64x1x1_0_1_3 : ∀ a, (![0, 1, 3] : Fin 3 → Nat) a + S64x1x1.size a ≤ S64x4x4.size a
  inb_S64x4x4_S64x1x1_0_2_3 : ∀ a, (![0, 2, 3] : Fin 3 → Nat) a + S64x1x1.size a ≤ S64x4x4.size a
  inb_S64x4x4_S64x1x1_0_3_3 : ∀ a, (![0, 3, 3] : Fin 3 → Nat) a + S64x1x1.size a ≤ S64x4x4.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2560.size a ≤ S8192x2560.size a
  hwx0_0 : ∀ i : grid0.Coords, EltTy.bits .bf16 = 32 ∨ (Rect.block (s := S8192x2560) S64x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4x2560.size a ≤ S8192x4x2560.size a
  hwx0_1 : ∀ i : grid0.Coords, EltTy.bits .bf16 = 32 ∨ (Rect.block (s := S8192x4x2560) S64x4x2560.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x4x1.size a ≤ S8192x4x1.size a
  hwx0_2 : ∀ i : grid0.Coords, EltTy.bits .f32 = 32 ∨ (Rect.block (s := S8192x4x1) S64x4x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4x4.size a ≤ S8192x4x4.size a
  hwx0_3 : ∀ i : grid0.Coords, EltTy.bits .f32 = 32 ∨ (Rect.block (s := S8192x4x4) S64x4x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4x2560.size a ≤ S8192x4x2560.size a
  hwx0_4 : ∀ i : grid0.Coords, EltTy.bits .bf16 = 32 ∨ (Rect.block (s := S8192x4x2560) S64x4x2560.size (cc0_transform_4 i) (hinb0_4 i)).WholeWords (EltTy.packing .bf16)

variable [Facts₀]

abbrev win0_0 : Pipeline.Window sig grid0 :=
  Pipeline.Window.ofSpec (Memref.whole main_arg0) S64x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4x2560.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x4x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x4x2560.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2560 : Shape := ⟨2, ![8192, 2560]⟩
abbrev S8192x4x2560 : Shape := ⟨3, ![8192, 4, 2560]⟩
abbrev S8192x4x1 : Shape := ⟨3, ![8192, 4, 1]⟩
abbrev S8192x4x4 : Shape := ⟨3, ![8192, 4, 4]⟩
abbrev S8192x1x2560 : Shape := ⟨3, ![8192, 1, 2560]⟩

abbrev nBuf : Space → Nat
  | .hbm => 13
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x4x2560, .bf16⟩
  | .hbm, ⟨2, _⟩ => ⟨S8192x4x1, .f32⟩
  | .hbm, ⟨3, _⟩ => ⟨S8192x4x4, .f32⟩
  | .hbm, ⟨4, _⟩ => ⟨S8192x4x2560, .f32⟩
  | .hbm, ⟨5, _⟩ => ⟨S8192x4x2560, .f32⟩
  | .hbm, ⟨6, _⟩ => ⟨S8192x2560, .f32⟩
  | .hbm, ⟨7, _⟩ => ⟨S8192x1x2560, .f32⟩
  | .hbm, ⟨8, _⟩ => ⟨S8192x4x2560, .f32⟩
  | .hbm, ⟨9, _⟩ => ⟨S8192x4x2560, .f32⟩
  | .hbm, ⟨10, _⟩ => ⟨S8192x4x2560, .f32⟩
  | .hbm, ⟨11, _⟩ => ⟨S8192x4x2560, .f32⟩
  | .hbm, ⟨12, _⟩ => ⟨S8192x4x2560, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bitsLt_bf16_f32 : FTy.bits .bf16 < FTy.bits .f32
  bcast_S8192x2560_S8192x1x2560_0_2 : S8192x2560.BroadcastsInDim S8192x1x2560 (![0, 2] : Fin 2 → Fin S8192x1x2560.rank)
  bcast_S8192x1x2560_S8192x4x2560_0_1_2 : S8192x1x2560.BroadcastsInDim S8192x4x2560 (![0, 1, 2] : Fin 3 → Fin S8192x4x2560.rank)
  bcast_S8192x4x1_S8192x4x2560_0_1_2 : S8192x4x1.BroadcastsInDim S8192x4x2560 (![0, 1, 2] : Fin 3 → Fin S8192x4x2560.rank)
  dot_S8192x4x4_S8192x4x2560_S8192x4x2560_1_1_2_2_0_0_wf : DotDims.WF S8192x4x4 S8192x4x2560 S8192x4x2560 [1] [1] [2] [2] [0] [0]

variable [Facts₀]

def dot_S8192x4x4_S8192x4x2560_S8192x4x2560_1_1_2_2_0_0 : DotDims S8192x4x4 S8192x4x2560 S8192x4x2560 where
  lhsContracting := [1]
  rhsContracting := [1]
  lhsNonContracting := [2]
  rhsNonContracting := [2]
  lhsBatch := [0]
  rhsBatch := [0]
  wf := dot_S8192x4x4_S8192x4x2560_S8192x4x2560_1_1_2_2_0_0_wf

class Facts : Prop extends Facts₀ where

variable [Facts]
-- ==== Proof.LibPairedRows.lean ====
/-
  Four rows written two at a time.

  A buffer of shape [a, 4, n] is filled by four stores of single rows [a, 1, n], each made as a
  read-modify-write of the two-row rectangle [a, 2, n] that holds the row (rows 0-1 or rows 2-3): the
  rectangle is loaded, the stored row is put at its place inside it, the other row is kept as
  loaded, and the rectangle is stored back. After rows 0, 1, 2, 3 have been stored in that order,
  every element of the buffer is an element of one of the four stored rows: nothing of what the
  buffer held before survives, and the contents are the four rows stacked along the middle axis
  (`stack4`). This is `read_paired_writes`, stated over the list of writes such a run leaves
  (each second store of a pair blending with what a load reads after the store before it).
  `updateSlice_row_hit` / `updateSlice_row_miss` read one such blend at an index.
-/
import Idealize.ShloMosaic.Lib.Pipeline.Value
import Idealize.ShloMosaic.Lib.Pipeline.FrameBody
import Idealize.ShloMosaic.Lib.ValueIdx

noncomputable section

namespace Idealize.ShloMosaic.PairedRows

open Idealize.ShloMosaic Idealize.ShloMosaic.ValueIdx

/-- The buffer's shape: `a` tokens, four rows each, `n` lanes. -/
abbrev B4 (a n : Nat) : Shape := ⟨3, ![a, 4, n]⟩
/-- A pair of rows. -/
abbrev T2 (a n : Nat) : Shape := ⟨3, ![a, 2, n]⟩
/-- One row. -/
abbrev R1 (a n : Nat) : Shape := ⟨3, ![a, 1, n]⟩

variable {a n : Nat} {α : Type}

/-- The one-row index under an index of a stack of `k` rows: the middle coordinate set to 0. -/
def rowOf {k : Nat} (y : (⟨3, ![a, k, n]⟩ : Shape).Idx) : (R1 a n).Idx := ix3 (y 0) (0 : Fin 1) (y 2)

/-- Four rows stacked along the middle axis: element (b, i, d) is row `i` at (b, 0, d). -/
def stack4 (r0 r1 r2 r3 : (R1 a n).Idx → α) : (B4 a n).Idx → α :=
  fun y => if (y 1).val = 0 then r0 (rowOf y) else if (y 1).val = 1 then r1 (rowOf y)
    else if (y 1).val = 2 then r2 (rowOf y) else r3 (rowOf y)

theorem stack4_row0 (r0 r1 r2 r3 : (R1 a n).Idx → α) (b : Fin a) (d : Fin n) :
    stack4 r0 r1 r2 r3 (ix3 b (0 : Fin 4) d) = r0 (ix3 b 0 d) := rfl
theorem stack4_row1 (r0 r1 r2 r3 : (R1 a n).Idx → α) (b : Fin a) (d : Fin n) :
    stack4 r0 r1 r2 r3 (ix3 b (1 : Fin 4) d) = r1 (ix3 b 0 d) := rfl
theorem stack4_row2 (r0 r1 r2 r3 : (R1 a n).Idx → α) (b : Fin a) (d : Fin n) :
    stack4 r0 r1 r2 r3 (ix3 b (2 : Fin 4) d) = r2 (ix3 b 0 d) := rfl
theorem stack4_row3 (r0 r1 r2 r3 : (R1 a n).Idx → α) (b : Fin a) (d : Fin n) :
    stack4 r0 r1 r2 r3 (ix3 b (3 : Fin 4) d) = r3 (ix3 b 0 d) := rfl

/-! ## One blend read at an index -/

/-- A row put at place `k` of a pair of rows, read at an index of that row: the row. -/
theorem updateSlice_row_hit (o : (T2 a n).Idx → α) (r : (R1 a n).Idx → α) (k : Nat)
    (h : (T2 a n).Slices ![0, k, 0] (R1 a n)) (x : (T2 a n).Idx) (hx : (x 1).val = k) :
    updateSlice o r ![0, k, 0] h x = r (rowOf x) := by
  have h0 : (x 0).val < a := (x 0).isLt
  have h2 : (x 2).val < n := (x 2).isLt
  have hin : ∀ ax : Fin (T2 a n).rank, (![0, k, 0] : Fin 3 → Nat) ax ≤ (x ax).val
      ∧ (x ax).val < (![0, k, 0] : Fin 3 → Nat) ax + (R1 a n).size (ax.cast h.1.symm) := by
    intro ax
    match ax with
    | ⟨0, _⟩ => exact ⟨Nat.zero_le _, (by show (x 0).val < 0 + a; omega)⟩
    | ⟨1, _⟩ => exact ⟨(by show k ≤ (x 1).val; omega), (by show (x 1).val < k + 1; omega)⟩
    | ⟨2, _⟩ => exact ⟨Nat.zero_le _, (by show (x 2).val < 0 + n; omega)⟩
  unfold updateSlice
  rw [dif_pos hin]
  congr 1
  funext b
  match b with
  | ⟨0, _⟩ => exact Fin.ext (by show (x 0).val - 0 = (x 0).val; omega)
  | ⟨1, _⟩ => exact Fin.ext (by show (x 1).val - k = 0; omega)
  | ⟨2, _⟩ => exact Fin.ext (by show (x 2).val - 0 = (x 2).val; omega)

/-- Read at an index of the other row: what was there. -/
theorem updateSlice_row_miss (o : (T2 a n).Idx → α) (r : (R1 a n).Idx → α) (k : Nat)
    (h : (T2 a n).Slices ![0, k, 0] (R1 a n)) (x : (T2 a n).Idx) (hx : (x 1).val ≠ k) :
    updateSlice o r ![0, k, 0] h x = o x := by
  unfold updateSlice
  rw [dif_neg]
  intro hin
  have h1 : k ≤ (x 1).val ∧ (x 1).val < k + 1 := hin (1 : Fin 3)
  omega

/-- Both rows of a pair put in place, whatever the pair held: row 0 then row 1. -/
theorem updateSlice_pair (o : (T2 a n).Idx → α) (rA rB : (R1 a n).Idx → α)
    (h0 : (T2 a n).Slices ![0, 0, 0] (R1 a n)) (h1 : (T2 a n).Slices ![0, 1, 0] (R1 a n)) (x : (T2 a n).Idx) :
    updateSlice (updateSlice o rA ![0, 0, 0] h0) rB ![0, 1, 0] h1 x
      = if (x 1).val = 0 then rA (rowOf x) else rB (rowOf x) := by
  have hx : (x 1).val < 2 := (x 1).isLt
  by_cases h : (x 1).val = 0
  · rw [if_pos h, updateSlice_row_miss _ _ 1 h1 x (by omega), updateSlice_row_hit _ _ 0 h0 x h]
  · rw [if_neg h, updateSlice_row_hit _ _ 1 h1 x (by omega)]

/-! ## The four writes -/

variable {sig : RefSig} {κ : Kind} {sp : Space} {e : EltTy} {Val : EltTy → Type} [∀ e, Nonempty (Val e)]

/-- Rows 0-1 of the buffer. -/
abbrev lo (inb : ∀ ax, (![0, 0, 0] : Fin 3 → Nat) ax + (T2 a n).size ax ≤ (B4 a n).size ax) : Rect (B4 a n) :=
  Rect.unit ![0, 0, 0] (T2 a n).size inb
/-- Rows 2-3 of the buffer. -/
abbrev hi (inb : ∀ ax, (![0, 2, 0] : Fin 3 → Nat) ax + (T2 a n).size ax ≤ (B4 a n).size ax) : Rect (B4 a n) :=
  Rect.unit ![0, 2, 0] (T2 a n).size inb

theorem mem_lo {inb} (y : (B4 a n).Idx) : y ∈ (lo (a := a) (n := n) inb).set ↔ (y 1).val < 2 := by
  have h0 : (y 0).val < a := (y 0).isLt
  have h2 : (y 2).val < n := (y 2).isLt
  rw [Rect.mem_set_unit]
  constructor
  · intro h
    have h1 : (0 : Nat) ≤ (y 1).val ∧ (y 1).val < 0 + 2 := h (1 : Fin 3)
    omega
  · intro h ax
    match ax with
    | ⟨0, _⟩ => exact ⟨Nat.zero_le _, (by show (y 0).val < 0 + a; omega)⟩
    | ⟨1, _⟩ => exact ⟨Nat.zero_le _, (by show (y 1).val < 0 + 2; omega)⟩
    | ⟨2, _⟩ => exact ⟨Nat.zero_le _, (by show (y 2).val < 0 + n; omega)⟩

theorem mem_hi {inb} (y : (B4 a n).Idx) : y ∈ (hi (a := a) (n := n) inb).set ↔ 2 ≤ (y 1).val := by
  have h0 : (y 0).val < a := (y 0).isLt
  have h1' : (y 1).val < 4 := (y 1).isLt
  have h2 : (y 2).val < n := (y 2).isLt
  rw [Rect.mem_set_unit]
  constructor
  · intro h
    have h1 : (2 : Nat) ≤ (y 1).val ∧ (y 1).val < 2 + 2 := h (1 : Fin 3)
    omega
  · intro h ax
    match ax with
    | ⟨0, _⟩ => exact ⟨Nat.zero_le _, (by show (y 0).val < 0 + a; omega)⟩
    | ⟨1, _⟩ => exact ⟨(by show 2 ≤ (y 1).val; omega), (by show (y 1).val < 2 + 2; omega)⟩
    | ⟨2, _⟩ => exact ⟨Nat.zero_le _, (by show (y 2).val < 0 + n; omega)⟩

/-- An index of rows 2-3 reads the LAST store through that rectangle, whatever the earlier stores. -/
theorem read_hi (v : View sig κ sp (B4 a n) e) (f : v.ty.Contents Val)
    (inb23 : ∀ ax, (![0, 2, 0] : Fin 3 → Nat) ax + (T2 a n).size ax ≤ (B4 a n).size ax)
    (w4 : (T2 a n).Idx → Val e) (L : List (View.Piece Val (B4 a n) e)) (x : (T2 a n).Idx) :
    v.read Val (v.writes Val f ((⟨hi inb23, w4⟩ : View.Piece Val (B4 a n) e) :: L)) ((hi inb23).emb x) = w4 x :=
  View.read_writes_cons_emb v f (hi inb23) w4 L x

/-- An index of rows 0-1 reads the last store through THAT rectangle: the two stores through rows 2-3 made after it
    leave it alone. -/
theorem read_lo (v : View sig κ sp (B4 a n) e) (f : v.ty.Contents Val)
    (inb01 : ∀ ax, (![0, 0, 0] : Fin 3 → Nat) ax + (T2 a n).size ax ≤ (B4 a n).size ax)
    (inb23 : ∀ ax, (![0, 2, 0] : Fin 3 → Nat) ax + (T2 a n).size ax ≤ (B4 a n).size ax)
    (w4 w3 w2 : (T2 a n).Idx → Val e) (L : List (View.Piece Val (B4 a n) e)) (x : (T2 a n).Idx) :
    v.read Val (v.writes Val f ((⟨hi inb23, w4⟩ : View.Piece Val (B4 a n) e) :: ⟨hi inb23, w3⟩ :: ⟨lo inb01, w2⟩ :: L))
      ((lo inb01).emb x) = w2 x := by
  have hx : (x 1).val < 2 := (x 1).isLt
  have e1 : (((lo (a := a) (n := n) inb01).emb x) 1).val = 0 + 1 * (x 1).val := rfl
  have hnm : (lo (a := a) (n := n) inb01).emb x ∉ (hi (a := a) (n := n) inb23).set := fun h => by
    have h2 : 2 ≤ (((lo (a := a) (n := n) inb01).emb x) 1).val := (mem_hi (inb := inb23) ((lo (a := a) (n := n) inb01).emb x)).mp h
    omega
  have hm : (lo (a := a) (n := n) inb01).emb x ∈ (lo (a := a) (n := n) inb01).set :=
    (mem_lo (inb := inb01) ((lo (a := a) (n := n) inb01).emb x)).mpr (by omega)
  refine (View.read_writes_apply_eq_canon v f ((lo (a := a) (n := n) inb01).emb x) _
    ⟨(⟨lo inb01, w2⟩ : View.Piece Val (B4 a n) e), List.mem_cons_of_mem _ (List.mem_cons_of_mem _ List.mem_cons_self), hm⟩).trans ?_
  rw [View.canon_cons_of_not_mem (⟨hi inb23, w4⟩ : View.Piece Val (B4 a n) e) _ hnm,
    View.canon_cons_of_not_mem (⟨hi inb23, w3⟩ : View.Piece Val (B4 a n) e) _ hnm]
  exact View.canon_cons_emb (lo inb01) w2 L x

theorem rowOf_hi_emb (inb23 : ∀ ax, (![0, 2, 0] : Fin 3 → Nat) ax + (T2 a n).size ax ≤ (B4 a n).size ax) (x : (T2 a n).Idx) :
    rowOf ((hi (a := a) (n := n) inb23).emb x) = rowOf x := by
  funext ax
  match ax with
  | ⟨0, _⟩ => exact Fin.ext (by show 0 + 1 * (x 0).val = (x 0).val; omega)
  | ⟨1, _⟩ => rfl
  | ⟨2, _⟩ => exact Fin.ext (by show 0 + 1 * (x 2).val = (x 2).val; omega)

theorem rowOf_lo_emb (inb01 : ∀ ax, (![0, 0, 0] : Fin 3 → Nat) ax + (T2 a n).size ax ≤ (B4 a n).size ax) (x : (T2 a n).Idx) :
    rowOf ((lo (a := a) (n := n) inb01).emb x) = rowOf x := by
  funext ax
  match ax with
  | ⟨0, _⟩ => exact Fin.ext (by show 0 + 1 * (x 0).val = (x 0).val; omega)
  | ⟨1, _⟩ => rfl
  | ⟨2, _⟩ => exact Fin.ext (by show 0 + 1 * (x 2).val = (x 2).val; omega)

/-- The buffer after the four stores, read whole: the four rows stacked, whatever it held (`f`) and whatever the
    first store of each pair loaded (`o1`, `o3`). The list is last store first; `q1` and `q3` are what the SECOND
    store of each pair loaded, which is what the first store of the pair left in the rectangle. -/
theorem read_paired_writes (v : View sig κ sp (B4 a n) e) (f : v.ty.Contents Val)
    (inb01 : ∀ ax, (![0, 0, 0] : Fin 3 → Nat) ax + (T2 a n).size ax ≤ (B4 a n).size ax)
    (inb23 : ∀ ax, (![0, 2, 0] : Fin 3 → Nat) ax + (T2 a n).size ax ≤ (B4 a n).size ax)
    (h0 : (T2 a n).Slices ![0, 0, 0] (R1 a n)) (h1 : (T2 a n).Slices ![0, 1, 0] (R1 a n))
    (o1 o3 q1 q3 : (T2 a n).Idx → Val e) (r0 r1 r2 r3 : (R1 a n).Idx → Val e)
    (hq1 : q1 = updateSlice o1 r0 ![0, 0, 0] h0) (hq3 : q3 = updateSlice o3 r2 ![0, 0, 0] h0) :
    v.read Val (v.writes Val f
      [(⟨hi inb23, updateSlice q3 r3 ![0, 1, 0] h1⟩ : View.Piece Val (B4 a n) e),
       ⟨hi inb23, updateSlice o3 r2 ![0, 0, 0] h0⟩,
       ⟨lo inb01, updateSlice q1 r1 ![0, 1, 0] h1⟩,
       ⟨lo inb01, updateSlice o1 r0 ![0, 0, 0] h0⟩])
    = stack4 r0 r1 r2 r3 := by
  subst hq1 hq3
  funext y
  have hy1 : (y 1).val < 4 := (y 1).isLt
  by_cases hy : 2 ≤ (y 1).val
  · have hm : y ∈ (hi (a := a) (n := n) inb23).set := (mem_hi y).mpr hy
    obtain ⟨x, hxy⟩ := (hi (a := a) (n := n) inb23).exists_idx_of_mem hm
    have hxy' : (hi (a := a) (n := n) inb23).emb x = y := hxy
    subst hxy'
    have hx : (x 1).val < 2 := (x 1).isLt
    have e1 : (((hi (a := a) (n := n) inb23).emb x) 1).val = 2 + 1 * (x 1).val := rfl
    refine (read_hi v f inb23 _ _ x).trans ?_
    rw [updateSlice_pair]
    unfold stack4
    rw [rowOf_hi_emb]
    by_cases hx0 : (x 1).val = 0
    · rw [if_pos hx0, if_neg (by omega), if_neg (by omega), if_pos (by omega)]
    · rw [if_neg hx0, if_neg (by omega), if_neg (by omega), if_neg (by omega)]
  · have hm : y ∈ (lo (a := a) (n := n) inb01).set := (mem_lo y).mpr (by omega)
    obtain ⟨x, hxy⟩ := (lo (a := a) (n := n) inb01).exists_idx_of_mem hm
    have hxy' : (lo (a := a) (n := n) inb01).emb x = y := hxy
    subst hxy'
    have hx : (x 1).val < 2 := (x 1).isLt
    have e1 : (((lo (a := a) (n := n) inb01).emb x) 1).val = 0 + 1 * (x 1).val := rfl
    refine (read_lo v f inb01 inb23 _ _ _ _ x).trans ?_
    rw [updateSlice_pair]
    unfold stack4
    rw [rowOf_lo_emb]
    by_cases hx0 : (x 1).val = 0
    · rw [if_pos hx0, if_pos (by omega)]
    · rw [if_neg hx0, if_neg (by omega), if_pos (by omega)]

end Idealize.ShloMosaic.PairedRows

end
-- ==== Proof.BodyBits.lean ====
/-
  The kernel's body at one grid point, and the pipeline's run.

  At a point the body finds four input blocks in its staging buffers — 64 tokens of x [64, 2560], of
  the residual streams [64, 4, 2560], of the post-layer weights [64, 4, 1] and of the mixing matrices
  [64, 4, 4] — and an output staging buffer [64, 4, 2560] holding anything. For each output stream i it
  computes one row [64, 2560],
      x · plm(·, i) + crm(·, 0, i) · res(·, 0) + crm(·, 1, i) · res(·, 1) + crm(·, 2, i) · res(·, 2) + crm(·, 3, i) · res(·, 3),
  and stores it as row i of the output buffer. A bf16 row shares its memory words with its neighbour,
  so each store is a read-modify-write of a PAIR of rows (rows 0-1 or rows 2-3): the pair is loaded,
  the new row put in place, the pair stored. After the four stores nothing of what the buffer held is
  left: it holds the four rows stacked (`out4`, by the paired-rows lemma). The inputs are only read.

  From that triple: the pipeline's proof data (every input window's buffer holds its block, the output
  window's holds `out4` of the point's input blocks), the body obligation at a generic point, the
  run of the whole grid, and the frame (the argument arrays end as they began). All of it for any
  float instance.
-/
import proofs.«181047_j25056839205321_2_alg».proof.Proof.Gen.Kernel.Frame
import proofs.«181047_j25056839205321_2_alg».proof.Proof.Gen.Kernel.Skeleton
import proofs.«181047_j25056839205321_2_alg».proof.Proof.LibPairedRows
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads through

The whole x block; row j of the residual block; column i of the post-layer weights; entry (j, i) of
the mixing matrices — each over all 64 tokens. -/

abbrev rX : Rect S64x2560 := Rect.unit (s := S64x2560) ![0, 0] S64x2560.size inb_S64x2560_S64x2560_0_0
abbrev rR0 : Rect S64x4x2560 := Rect.unit (s := S64x4x2560) ![0, 0, 0] S64x1x2560.size inb_S64x4x2560_S64x1x2560_0_0_0
abbrev rR1 : Rect S64x4x2560 := Rect.unit (s := S64x4x2560) ![0, 1, 0] S64x1x2560.size inb_S64x4x2560_S64x1x2560_0_1_0
abbrev rR2 : Rect S64x4x2560 := Rect.unit (s := S64x4x2560) ![0, 2, 0] S64x1x2560.size inb_S64x4x2560_S64x1x2560_0_2_0
abbrev rR3 : Rect S64x4x2560 := Rect.unit (s := S64x4x2560) ![0, 3, 0] S64x1x2560.size inb_S64x4x2560_S64x1x2560_0_3_0
abbrev rP0 : Rect S64x4x1 := Rect.unit (s := S64x4x1) ![0, 0, 0] S64x1x1.size inb_S64x4x1_S64x1x1_0_0_0
abbrev rP1 : Rect S64x4x1 := Rect.unit (s := S64x4x1) ![0, 1, 0] S64x1x1.size inb_S64x4x1_S64x1x1_0_1_0
abbrev rP2 : Rect S64x4x1 := Rect.unit (s := S64x4x1) ![0, 2, 0] S64x1x1.size inb_S64x4x1_S64x1x1_0_2_0
abbrev rP3 : Rect S64x4x1 := Rect.unit (s := S64x4x1) ![0, 3, 0] S64x1x1.size inb_S64x4x1_S64x1x1_0_3_0
abbrev rC00 : Rect S64x4x4 := Rect.unit (s := S64x4x4) ![0, 0, 0] S64x1x1.size inb_S64x4x4_S64x1x1_0_0_0
abbrev rC01 : Rect S64x4x4 := Rect.unit (s := S64x4x4) ![0, 0, 1] S64x1x1.size inb_S64x4x4_S64x1x1_0_0_1
abbrev rC02 : Rect S64x4x4 := Rect.unit (s := S64x4x4) ![0, 0, 2] S64x1x1.size inb_S64x4x4_S64x1x1_0_0_2
abbrev rC03 : Rect S64x4x4 := Rect.unit (s := S64x4x4) ![0, 0, 3] S64x1x1.size inb_S64x4x4_S64x1x1_0_0_3
abbrev rC10 : Rect S64x4x4 := Rect.unit (s := S64x4x4) ![0, 1, 0] S64x1x1.size inb_S64x4x4_S64x1x1_0_1_0
abbrev rC11 : Rect S64x4x4 := Rect.unit (s := S64x4x4) ![0, 1, 1] S64x1x1.size inb_S64x4x4_S64x1x1_0_1_1
abbrev rC12 : Rect S64x4x4 := Rect.unit (s := S64x4x4) ![0, 1, 2] S64x1x1.size inb_S64x4x4_S64x1x1_0_1_2
abbrev rC13 : Rect S64x4x4 := Rect.unit (s := S64x4x4) ![0, 1, 3] S64x1x1.size inb_S64x4x4_S64x1x1_0_1_3
abbrev rC20 : Rect S64x4x4 := Rect.unit (s := S64x4x4) ![0, 2, 0] S64x1x1.size inb_S64x4x4_S64x1x1_0_2_0
abbrev rC21 : Rect S64x4x4 := Rect.unit (s := S64x4x4) ![0, 2, 1] S64x1x1.size inb_S64x4x4_S64x1x1_0_2_1
abbrev rC22 : Rect S64x4x4 := Rect.unit (s := S64x4x4) ![0, 2, 2] S64x1x1.size inb_S64x4x4_S64x1x1_0_2_2
abbrev rC23 : Rect S64x4x4 := Rect.unit (s := S64x4x4) ![0, 2, 3] S64x1x1.size inb_S64x4x4_S64x1x1_0_2_3
abbrev rC30 : Rect S64x4x4 := Rect.unit (s := S64x4x4) ![0, 3, 0] S64x1x1.size inb_S64x4x4_S64x1x1_0_3_0
abbrev rC31 : Rect S64x4x4 := Rect.unit (s := S64x4x4) ![0, 3, 1] S64x1x1.size inb_S64x4x4_S64x1x1_0_3_1
abbrev rC32 : Rect S64x4x4 := Rect.unit (s := S64x4x4) ![0, 3, 2] S64x1x1.size inb_S64x4x4_S64x1x1_0_3_2
abbrev rC33 : Rect S64x4x4 := Rect.unit (s := S64x4x4) ![0, 3, 3] S64x1x1.size inb_S64x4x4_S64x1x1_0_3_3

/-! ## The four rows, from the four input blocks -/

section Rows

variable (x : Vec F S64x2560 .bf16) (res : Vec F S64x4x2560 .bf16) (plm : Vec F S64x4x1 .f32) (crm : Vec F S64x4x4 .f32)

/-- x widened to f32. -/
def xw : FVec F S64x2560 .f32 := k0_pay2 (View.ld x rX)
/-- Residual stream j widened to f32, as a [64, 2560] matrix. -/
def rw0 : FVec F S64x2560 .f32 := k0_pay3 (View.ld res rR0)
def rw1 : FVec F S64x2560 .f32 := k0_pay4 (View.ld res rR1)
def rw2 : FVec F S64x2560 .f32 := k0_pay5 (View.ld res rR2)
def rw3 : FVec F S64x2560 .f32 := k0_pay6 (View.ld res rR3)

/-- Output stream 0: x · plm(·,0) + Σ_j crm(·,j,0) · res(·,j), summed left to right, narrowed to bf16. -/
def row0 : FVec F S64x1x2560 .bf16 :=
  k0_pay8 (rw3 res) (k0_pay7 (View.ld x rX) (View.ld res rR0) (View.ld res rR1) (View.ld res rR2) (View.ld plm rP0) (View.ld crm rC00) (View.ld crm rC10) (View.ld crm rC20)) (View.ld crm rC30)
/-- Output stream 1. -/
def row1 : FVec F S64x1x2560 .bf16 :=
  k0_pay10 (k0_pay9 (xw x) (rw0 res) (rw1 res) (rw2 res) (rw3 res) (View.ld plm rP1) (View.ld crm rC01) (View.ld crm rC11) (View.ld crm rC21) (View.ld crm rC31))
/-- Output stream 2. -/
def row2 : FVec F S64x1x2560 .bf16 :=
  k0_pay11 (xw x) (rw0 res) (rw1 res) (rw2 res) (rw3 res) (View.ld plm rP2) (View.ld crm rC02) (View.ld crm rC12) (View.ld crm rC22) (View.ld crm rC32)
/-- Output stream 3. -/
def row3 : FVec F S64x1x2560 .bf16 :=
  k0_pay1 (rw0 res) (rw1 res) (rw2 res) (rw3 res) (k0_pay12 (xw x) (View.ld plm rP3)) (View.ld crm rC03) (View.ld crm rC13) (View.ld crm rC23) (View.ld crm rC33)

/-- What the output window's staging buffer holds after the body: the four rows stacked along the stream axis. -/
def out4 : Vec F S64x4x2560 .bf16 :=
  PairedRows.stack4 (a := 64) (n := 2560) (row0 x res plm crm) (row1 x res plm crm) (row2 x res plm crm) (row3 x res plm crm)

end Rows

/-! ## The body's triple -/

set_option maxHeartbeats 2000000 in
/-- The body on whole staging memrefs — the inputs' at read contents `x0 … x3`, the output's at anything — runs to
    the continuation holding the inputs' as they were and the output's at `out4` of the inputs'. Afterwards
    the output buffer is what it held overwritten by the four read-modify-write stores, last first; the paired-rows
    lemma reads that as the stacked rows (each second store of a pair loaded what the first had just left). -/
theorem sound_kernel (c : Dev nD) (E : Set ℕ) (i : grid0.Coords)
    (arg1 : Memref sig .tc .vmem S64x2560 .bf16) (harg1 : arg1.IsWhole) (arg2 : Memref sig .tc .vmem S64x4x2560 .bf16) (harg2 : arg2.IsWhole)
    (arg3 : Memref sig .tc .vmem S64x4x1 .f32) (harg3 : arg3.IsWhole) (arg4 : Memref sig .tc .vmem S64x4x4 .f32) (harg4 : arg4.IsWhole)
    (arg5 : Memref sig .tc .vmem S64x4x2560 .bf16) (harg5 : arg5.IsWhole)
    (x0 : Vec F S64x2560 .bf16) (x1 : Vec F S64x4x2560 .bf16) (x2 : Vec F S64x4x1 .f32) (x3 : Vec F S64x4x4 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold sound_kernel.sl.H4_3 sound_kernel.sl.H4_1
  refine PairedRows.read_paired_writes (a := 64) (n := 2560) arg5.view f4 inb_S64x4x2560_S64x2x2560_0_0_0 inb_S64x4x2560_S64x2x2560_0_2_0
    slices_S64x2x2560_S64x1x2560_0_0_0 slices_S64x2x2560_S64x1x2560_0_1_0 _ _ _ _ _ _ _ _ ?_ ?_
  · unfold sound_kernel.sl.old sound_kernel.sl.H4_1
    exact View.readCov_cons_toLoadRect _ _ _ _
  · unfold sound_kernel.sl.old_2 sound_kernel.sl.H4_3
    exact View.readCov_cons_toLoadRect _ _ _ _

/-! ## The pipeline's proof data -/

variable (m : (ℓ : Loc nD τ sig) → Buf (Elt F) ℓ) (ρ : Dev nD → PrngReg)

/-- The proof data on core `c`: the arrays as the region finds them; after the body at point `t` each input
    window's buffer still at its block and the output window's at `out4` of the point's four input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, the core's dues, and the five windows' current buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and the
    core's dues pass through unread; whatever the output buffer held is overwritten. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data (the output array: the blocks the
    points wrote back; an input array: unchanged). -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end, nothing faults, and the four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.BodyIdeal.lean ====
/-
  The kernel's body at one grid point, and the pipeline's run.

  At a point the body finds four input blocks in its staging buffers — 64 tokens of x [64, 2560], of
  the residual streams [64, 4, 2560], of the post-layer weights [64, 4, 1] and of the mixing matrices
  [64, 4, 4] — and an output staging buffer [64, 4, 2560] holding anything. For each output stream i it
  computes one row [64, 2560],
      x · plm(·, i) + crm(·, 0, i) · res(·, 0) + crm(·, 1, i) · res(·, 1) + crm(·, 2, i) · res(·, 2) + crm(·, 3, i) · res(·, 3),
  and stores it as row i of the output buffer. A bf16 row shares its memory words with its neighbour,
  so each store is a read-modify-write of a PAIR of rows (rows 0-1 or rows 2-3): the pair is loaded,
  the new row put in place, the pair stored. After the four stores nothing of what the buffer held is
  left: it holds the four rows stacked (`out4`, by the paired-rows lemma). The inputs are only read.

  From that triple: the pipeline's proof data (every input window's buffer holds its block, the output
  window's holds `out4` of the point's input blocks), the body obligation at a generic point, the
  run of the whole grid, and the frame (the argument arrays end as they began). All of it for any
  float instance.
-/
import proofs.«181047_j25056839205321_2_alg».proof.Proof.Gen.KernelIdeal.Frame
import proofs.«181047_j25056839205321_2_alg».proof.Proof.Gen.KernelIdeal.Skeleton
import proofs.«181047_j25056839205321_2_alg».proof.Proof.LibPairedRows
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body loads through

The whole x block; row j of the residual block; column i of the post-layer weights; entry (j, i) of
the mixing matrices — each over all 64 tokens. -/

abbrev rX : Rect S64x2560 := Rect.unit (s := S64x2560) ![0, 0] S64x2560.size inb_S64x2560_S64x2560_0_0
abbrev rR0 : Rect S64x4x2560 := Rect.unit (s := S64x4x2560) ![0, 0, 0] S64x1x2560.size inb_S64x4x2560_S64x1x2560_0_0_0
abbrev rR1 : Rect S64x4x2560 := Rect.unit (s := S64x4x2560) ![0, 1, 0] S64x1x2560.size inb_S64x4x2560_S64x1x2560_0_1_0
abbrev rR2 : Rect S64x4x2560 := Rect.unit (s := S64x4x2560) ![0, 2, 0] S64x1x2560.size inb_S64x4x2560_S64x1x2560_0_2_0
abbrev rR3 : Rect S64x4x2560 := Rect.unit (s := S64x4x2560) ![0, 3, 0] S64x1x2560.size inb_S64x4x2560_S64x1x2560_0_3_0
abbrev rP0 : Rect S64x4x1 := Rect.unit (s := S64x4x1) ![0, 0, 0] S64x1x1.size inb_S64x4x1_S64x1x1_0_0_0
abbrev rP1 : Rect S64x4x1 := Rect.unit (s := S64x4x1) ![0, 1, 0] S64x1x1.size inb_S64x4x1_S64x1x1_0_1_0
abbrev rP2 : Rect S64x4x1 := Rect.unit (s := S64x4x1) ![0, 2, 0] S64x1x1.size inb_S64x4x1_S64x1x1_0_2_0
abbrev rP3 : Rect S64x4x1 := Rect.unit (s := S64x4x1) ![0, 3, 0] S64x1x1.size inb_S64x4x1_S64x1x1_0_3_0
abbrev rC00 : Rect S64x4x4 := Rect.unit (s := S64x4x4) ![0, 0, 0] S64x1x1.size inb_S64x4x4_S64x1x1_0_0_0
abbrev rC01 : Rect S64x4x4 := Rect.unit (s := S64x4x4) ![0, 0, 1] S64x1x1.size inb_S64x4x4_S64x1x1_0_0_1
abbrev rC02 : Rect S64x4x4 := Rect.unit (s := S64x4x4) ![0, 0, 2] S64x1x1.size inb_S64x4x4_S64x1x1_0_0_2
abbrev rC03 : Rect S64x4x4 := Rect.unit (s := S64x4x4) ![0, 0, 3] S64x1x1.size inb_S64x4x4_S64x1x1_0_0_3
abbrev rC10 : Rect S64x4x4 := Rect.unit (s := S64x4x4) ![0, 1, 0] S64x1x1.size inb_S64x4x4_S64x1x1_0_1_0
abbrev rC11 : Rect S64x4x4 := Rect.unit (s := S64x4x4) ![0, 1, 1] S64x1x1.size inb_S64x4x4_S64x1x1_0_1_1
abbrev rC12 : Rect S64x4x4 := Rect.unit (s := S64x4x4) ![0, 1, 2] S64x1x1.size inb_S64x4x4_S64x1x1_0_1_2
abbrev rC13 : Rect S64x4x4 := Rect.unit (s := S64x4x4) ![0, 1, 3] S64x1x1.size inb_S64x4x4_S64x1x1_0_1_3
abbrev rC20 : Rect S64x4x4 := Rect.unit (s := S64x4x4) ![0, 2, 0] S64x1x1.size inb_S64x4x4_S64x1x1_0_2_0
abbrev rC21 : Rect S64x4x4 := Rect.unit (s := S64x4x4) ![0, 2, 1] S64x1x1.size inb_S64x4x4_S64x1x1_0_2_1
abbrev rC22 : Rect S64x4x4 := Rect.unit (s := S64x4x4) ![0, 2, 2] S64x1x1.size inb_S64x4x4_S64x1x1_0_2_2
abbrev rC23 : Rect S64x4x4 := Rect.unit (s := S64x4x4) ![0, 2, 3] S64x1x1.size inb_S64x4x4_S64x1x1_0_2_3
abbrev rC30 : Rect S64x4x4 := Rect.unit (s := S64x4x4) ![0, 3, 0] S64x1x1.size inb_S64x4x4_S64x1x1_0_3_0
abbrev rC31 : Rect S64x4x4 := Rect.unit (s := S64x4x4) ![0, 3, 1] S64x1x1.size inb_S64x4x4_S64x1x1_0_3_1
abbrev rC32 : Rect S64x4x4 := Rect.unit (s := S64x4x4) ![0, 3, 2] S64x1x1.size inb_S64x4x4_S64x1x1_0_3_2
abbrev rC33 : Rect S64x4x4 := Rect.unit (s := S64x4x4) ![0, 3, 3] S64x1x1.size inb_S64x4x4_S64x1x1_0_3_3

/-! ## The four rows, from the four input blocks -/

section Rows

variable (x : Vec F S64x2560 .bf16) (res : Vec F S64x4x2560 .bf16) (plm : Vec F S64x4x1 .f32) (crm : Vec F S64x4x4 .f32)

/-- x widened to f32. -/
def xw : FVec F S64x2560 .f32 := k0_pay2 (View.ld x rX)
/-- Residual stream j widened to f32, as a [64, 2560] matrix. -/
def rw0 : FVec F S64x2560 .f32 := k0_pay3 (View.ld res rR0)
def rw1 : FVec F S64x2560 .f32 := k0_pay4 (View.ld res rR1)
def rw2 : FVec F S64x2560 .f32 := k0_pay5 (View.ld res rR2)
def rw3 : FVec F S64x2560 .f32 := k0_pay6 (View.ld res rR3)

/-- Output stream 0: x · plm(·,0) + Σ_j crm(·,j,0) · res(·,j), summed left to right, narrowed to bf16. -/
def row0 : FVec F S64x1x2560 .bf16 :=
  k0_pay8 (rw3 res) (k0_pay7 (View.ld x rX) (View.ld res rR0) (View.ld res rR1) (View.ld res rR2) (View.ld plm rP0) (View.ld crm rC00) (View.ld crm rC10) (View.ld crm rC20)) (View.ld crm rC30)
/-- Output stream 1. -/
def row1 : FVec F S64x1x2560 .bf16 :=
  k0_pay10 (k0_pay9 (xw x) (rw0 res) (rw1 res) (rw2 res) (rw3 res) (View.ld plm rP1) (View.ld crm rC01) (View.ld crm rC11) (View.ld crm rC21) (View.ld crm rC31))
/-- Output stream 2. -/
def row2 : FVec F S64x1x2560 .bf16 :=
  k0_pay11 (xw x) (rw0 res) (rw1 res) (rw2 res) (rw3 res) (View.ld plm rP2) (View.ld crm rC02) (View.ld crm rC12) (View.ld crm rC22) (View.ld crm rC32)
/-- Output stream 3. -/
def row3 : FVec F S64x1x2560 .bf16 :=
  k0_pay1 (rw0 res) (rw1 res) (rw2 res) (rw3 res) (k0_pay12 (xw x) (View.ld plm rP3)) (View.ld crm rC03) (View.ld crm rC13) (View.ld crm rC23) (View.ld crm rC33)

/-- What the output window's staging buffer holds after the body: the four rows stacked along the stream axis. -/
def out4 : Vec F S64x4x2560 .bf16 :=
  PairedRows.stack4 (a := 64) (n := 2560) (row0 x res plm crm) (row1 x res plm crm) (row2 x res plm crm) (row3 x res plm crm)

end Rows

/-! ## The body's triple -/

set_option maxHeartbeats 2000000 in
/-- The body on whole staging memrefs — the inputs' at read contents `x0 … x3`, the output's at anything — runs to
    the continuation holding the inputs' as they were and the output's at `out4` of the inputs'. Afterwards
    the output buffer is what it held overwritten by the four read-modify-write stores, last first; the paired-rows
    lemma reads that as the stacked rows (each second store of a pair loaded what the first had just left). -/
theorem sound_kernel (c : Dev nD) (E : Set ℕ) (i : grid0.Coords)
    (arg1 : Memref sig .tc .vmem S64x2560 .bf16) (harg1 : arg1.IsWhole) (arg2 : Memref sig .tc .vmem S64x4x2560 .bf16) (harg2 : arg2.IsWhole)
    (arg3 : Memref sig .tc .vmem S64x4x1 .f32) (harg3 : arg3.IsWhole) (arg4 : Memref sig .tc .vmem S64x4x4 .f32) (harg4 : arg4.IsWhole)
    (arg5 : Memref sig .tc .vmem S64x4x2560 .bf16) (harg5 : arg5.IsWhole)
    (x0 : Vec F S64x2560 .bf16) (x1 : Vec F S64x4x2560 .bf16) (x2 : Vec F S64x4x1 .f32) (x3 : Vec F S64x4x4 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  unfold sound_kernel.sl.H4_3 sound_kernel.sl.H4_1
  refine PairedRows.read_paired_writes (a := 64) (n := 2560) arg5.view f4 inb_S64x4x2560_S64x2x2560_0_0_0 inb_S64x4x2560_S64x2x2560_0_2_0
    slices_S64x2x2560_S64x1x2560_0_0_0 slices_S64x2x2560_S64x1x2560_0_1_0 _ _ _ _ _ _ _ _ ?_ ?_
  · unfold sound_kernel.sl.old sound_kernel.sl.H4_1
    exact View.readCov_cons_toLoadRect _ _ _ _
  · unfold sound_kernel.sl.old_2 sound_kernel.sl.H4_3
    exact View.readCov_cons_toLoadRect _ _ _ _

/-! ## The pipeline's proof data -/

variable (m : (ℓ : Loc nD τ sig) → Buf (Elt F) ℓ) (ρ : Dev nD → PrngReg)

/-- The proof data on core `c`: the arrays as the region finds them; after the body at point `t` each input
    window's buffer still at its block and the output window's at `out4` of the point's four input blocks; the
    invariant the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (iblk m c 0 t) (iblk m c 1 t) (iblk m c 2 t) (iblk m c 3 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`: the invariant, the core's dues, and the five windows' current buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and the
    core's dues pass through unread; whatever the output buffer held is overwritten. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has
    each array of the pipeline at what the library computes from the proof data (the output array: the blocks the
    points wrote back; an input array: unchanged). -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end, nothing faults, and the four argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibOuterLayout.lean ====
/-
  The layout steps of an outer combination `a[:, None, :] ∘ b[None, :, :]` read at coordinates.

  Two matrices `[a, c]` and `[b, c]` are combined over every pair of rows by giving the first a unit middle axis
  (`[a, 1, c]`), the second a unit leading axis (`[1, b, c]`), and laying both over `[a, b, c]`. Read at `(p, q, r)`
  the first is row `p` of its matrix at column `r` and the second row `q` of its matrix at column `r`. The leading
  unit axis (`[b, c]` viewed as `[1, b, c]`) is the library's `shapeCast_ab_1ab_apply`; here are the middle unit axis
  and the two broadcasts, each with every index written by its coordinates.
-/
import Idealize.ShloMosaic.Lib.ValueLayout

namespace OuterLayout

open Idealize.ShloMosaic Idealize.ShloMosaic.ValueIdx

variable {α : Type}

/-- An `[a, c]` array viewed as `[a, 1, c]` reads, at `(i, u, j)`, the operand at `(i, j)`: the two indices have
    the same row-major position, `i * c + j`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, 1, c]` array laid over `[a, b, c]` reads, at `(p, q, r)`, the operand at `(p, 0, r)`: the middle
    coordinate is forgotten. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A `[1, b, c]` array laid over `[a, b, c]` reads, at `(p, q, r)`, the operand at `(0, q, r)`: the leading
    coordinate is forgotten. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end OuterLayout
-- ==== Proof.LibPairLayout.lean ====
/-
  Rank-3 layout operations read at an index given by coordinates, for a pairwise difference `u[p, d] − v[d, q]` laid out
  as `[a, c, n]`: a middle unit axis dropped (`[a, 1, c]` to `[a, c]`), a trailing unit axis added (`[a, c]` to `[a, c, 1]`),
  that trailing axis broadcast (`[a, c, 1]` to `[a, c, n]`), a leading unit axis broadcast (`[1, c, n]` to `[a, c, n]`),
  the index a reduction over the middle axis inserts (`[a, c, n]` to `[a, n]`), the one a reduction over the last axis of
  a matrix inserts (`[a, n]` to `[a]`), and a rank-3 transpose that brings the leading axis last.
-/
import Idealize.ShloMosaic.Lib.ValueLayout
import Idealize.ShloMosaic.PureOps.Ideal.Laws

namespace Cert.PairLayout

open Idealize.ShloMosaic Idealize.ShloMosaic.ValueIdx

variable {α : Type}

/-- An `[a, 1, c]` array cast to `[a, c]` reads, at `(p, d)`, the operand at `(p, 0, d)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (d : Fin c) :
    shapeCast ⟨2, ![a, c]⟩ x h (ix2 p d) = x (ix3 p (0 : Fin 1) d) :=
  shapeCast_apply x h _ _ (by
    rw [Shape.rowMajor_val_three, Shape.rowMajor_val_two]
    show (p.val * 1 + 0) * c + d.val = p.val * c + d.val
    rw [Nat.mul_one, Nat.add_zero])

/-- An `[a, c]` array cast to `[a, c, 1]` reads, at `(p, d, u)`, the operand at `(p, d)`. -/
theorem shapeCast_ac_ac1_apply {a c : ℕ} (x : (⟨2, ![a, c]⟩ : Shape).Idx → α)
    (h : (⟨2, ![a, c]⟩ : Shape).ShapeCasts ⟨3, ![a, c, 1]⟩) (p : Fin a) (d : Fin c) (u : Fin 1) :
    shapeCast ⟨3, ![a, c, 1]⟩ x h (ix3 p d u) = x (ix2 p d) :=
  shapeCast_apply x h _ _ (by
    have hu : u.val = 0 := by omega
    rw [Shape.rowMajor_val_three, Shape.rowMajor_val_two]
    show p.val * c + d.val = (p.val * c + d.val) * 1 + u.val
    rw [hu, Nat.mul_one, Nat.add_zero])

/-- An `[a, c, 1]` array broadcast to `[a, c, n]` reads, at `(p, d, q)`, the operand at `(p, d, 0)`. -/
theorem broadcastTo_ac1_acn_apply {a c n : ℕ} (v : (⟨3, ![a, c, 1]⟩ : Shape).Idx → α)
    (h : (⟨3, ![a, c, 1]⟩ : Shape).Broadcasts ⟨3, ![a, c, n]⟩) (p : Fin a) (d : Fin c) (q : Fin n) :
    broadcastTo ⟨3, ![a, c, n]⟩ v h (ix3 p d q) = v (ix3 p d (0 : Fin 1)) := by
  refine broadcastTo_apply v h (ix3 p d q) (ix3 p d (0 : Fin 1)) fun ax => ?_
  match ax with
  | ⟨0, _⟩ =>
    show p.val = if a = 1 then 0 else p.val
    split
    · have := p.isLt; omega
    · rfl
  | ⟨1, _⟩ =>
    show d.val = if c = 1 then 0 else d.val
    split
    · have := d.isLt; omega
    · rfl
  | ⟨2, _⟩ => rfl

/-- A `[1, c, n]` array broadcast to `[a, c, n]` reads, at `(p, d, q)`, the operand at `(0, d, q)`. -/
theorem broadcastTo_1cn_acn_apply {a c n : ℕ} (v : (⟨3, ![1, c, n]⟩ : Shape).Idx → α)
    (h : (⟨3, ![1, c, n]⟩ : Shape).Broadcasts ⟨3, ![a, c, n]⟩) (p : Fin a) (d : Fin c) (q : Fin n) :
    broadcastTo ⟨3, ![a, c, n]⟩ v h (ix3 p d q) = v (ix3 (0 : Fin 1) d q) := by
  refine broadcastTo_apply v h (ix3 p d q) (ix3 (0 : Fin 1) d q) fun ax => ?_
  match ax with
  | ⟨0, _⟩ => rfl
  | ⟨1, _⟩ =>
    show d.val = if c = 1 then 0 else d.val
    split
    · have := d.isLt; omega
    · rfl
  | ⟨2, _⟩ =>
    show q.val = if n = 1 then 0 else q.val
    split
    · have := q.isLt; omega
    · rfl

/-- The source index a reduction of `[a, c, n]` over its middle axis visits for result index `(p, q)` and
    coordinate `d` is `(p, d, q)`. -/
theorem lift_middle {a c n : ℕ} (h : (⟨3, ![a, c, n]⟩ : Shape).Reduces [(1 : Fin 3)] ⟨2, ![a, n]⟩)
    (p : Fin a) (q : Fin n) (d : Fin c) : h.lift (ix2 p q) d = ix3 p d q :=
  funext fun ax => Fin.ext (by
    match ax with
    | ⟨0, _⟩ => rfl
    | ⟨1, _⟩ => rfl
    | ⟨2, _⟩ => rfl)

/-- The source index a reduction of `[a, n]` over its columns visits for row `p` and coordinate `q` is `(p, q)`. -/
theorem lift_cols {a n : ℕ} (h : (⟨2, ![a, n]⟩ : Shape).Reduces [(1 : Fin 2)] ⟨1, ![a]⟩)
    (p : Fin a) (q : Fin n) : h.lift (ix1 p) q = ix2 p q :=
  funext fun ax => Fin.ext (by
    match ax with
    | ⟨0, _⟩ => rfl
    | ⟨1, _⟩ => rfl)

/-- The lane reduction of `[a, c, n]` over its middle axis from the zero word, at `(p, q)`: the sum over `d` of the
    source at `(p, d, q)`. -/
theorem middleSum_apply {a c n : ℕ} (src : FVec Ideal ⟨3, ![a, c, n]⟩ .f32)
    (h : (⟨3, ![a, c, n]⟩ : Shape).Reduces [(1 : Fin 3)] ⟨2, ![a, n]⟩)
    (hφ : FKind.Formats .f32) (hacc : (0x00000000#32 : BitVec 32) = FKind.add.neutral .f32 hφ) (p : Fin a) (q : Fin n) :
    multiReduction .add [(1 : Fin 3)] ⟨2, ![a, n]⟩ src 0x00000000#32 h hφ hacc (ix2 p q) = ∑ d : Fin c, src (ix3 p d q) :=
  (Ideal.multiReduction_add_single src 0x00000000#32 h hφ hacc (ix2 p q)).trans
    (Finset.sum_congr rfl fun d _ => congrArg src (lift_middle h p q d))

/-- An `[m, a, b]` array transposed by the permutation `[1, 2, 0]` (result axes are source axes 1, 2, 0) reads, at
    `(i, j, k)`, the operand at `(k, i, j)`. -/
theorem transpose_ix3_120_apply {m a b : ℕ} (x : (⟨3, ![m, a, b]⟩ : Shape).Idx → α)
    (h : (⟨3, ![m, a, b]⟩ : Shape).Transposes [1, 2, 0] ⟨3, ![a, b, m]⟩) (i : Fin a) (j : Fin b) (k : Fin m) :
    transpose ⟨3, ![a, b, m]⟩ [1, 2, 0] x h (ix3 i j k) = x (ix3 k i j) :=
  transpose_apply _ x h _ _ fun c => match c with | ⟨0, _⟩ => rfl | ⟨1, _⟩ => rfl | ⟨2, _⟩ => rfl

end Cert.PairLayout
-- ==== Proof.Spec.lean ====
/-
  The specification: what both programs compute, as one function of the four argument arrays.

  For token t, output stream i and lane d,
      out(t, i, d) = x(t, d) · plm(t, i, 0) + Σ_j crm(t, j, i) · res(t, j, d),   j over the four residual streams.
  The reference evaluates exactly this (a product plus a four-term contraction). The kernel adds the four
  products onto x · plm one after the other; on the extended reals addition is associative, so the two
  arrangements are one number (`chain_eq_mixAt`) — no finiteness of the inputs is used.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx
open scoped BigOperators

/-- One output element from the elements it depends on: `a` of x, `p` of the post-layer weights, and for each
    residual stream j the mixing weight `c j` and the residual element `r j`. -/
def mixAt (a p : EReal) (c r : Fin 4 → EReal) : EReal := a * p + ∑ j : Fin 4, c j * r j

/-- The four products added one after the other onto `a · p` give the same element. -/
theorem chain_eq_mixAt (a p : EReal) (c r : Fin 4 → EReal) :
    (((a * p + c 0 * r 0) + c 1 * r 1) + c 2 * r 2) + c 3 * r 3 = mixAt a p c r := by
  unfold mixAt
  rw [Fin.sum_univ_four]
  simp only [add_assoc]

/-- The whole result array [8192, 4, 2560], index by index. -/
def G (x : (⟨2, ![8192, 2560]⟩ : Shape).Idx → EReal) (res : (⟨3, ![8192, 4, 2560]⟩ : Shape).Idx → EReal)
    (plm : (⟨3, ![8192, 4, 1]⟩ : Shape).Idx → EReal) (crm : (⟨3, ![8192, 4, 4]⟩ : Shape).Idx → EReal) :
    (⟨3, ![8192, 4, 2560]⟩ : Shape).Idx → EReal :=
  fun i => mixAt (x (ix2 (i 0) (i 2))) (plm (ix3 (i 0) (i 1) (0 : Fin 1)))
    (fun j => crm (ix3 (i 0) j (i 1))) (fun j => res (ix3 (i 0) j (i 2)))

/-- The same function on one block of 64 tokens: what a grid point computes from its four input blocks. -/
def Gblk (x : (⟨2, ![64, 2560]⟩ : Shape).Idx → EReal) (res : (⟨3, ![64, 4, 2560]⟩ : Shape).Idx → EReal)
    (plm : (⟨3, ![64, 4, 1]⟩ : Shape).Idx → EReal) (crm : (⟨3, ![64, 4, 4]⟩ : Shape).Idx → EReal)
    (b : Fin 64) (i : Fin 4) (d : Fin 2560) : EReal :=
  mixAt (x (ix2 b d)) (plm (ix3 b i (0 : Fin 1))) (fun j => crm (ix3 b j i)) (fun j => res (ix3 b j d))

end Cert.Spec

end
-- ==== Proof.RowsIdeal.lean ====
/-
  The four rows at the ideal instance, element by element.

  On the extended reals a change of float format is the identity, so row i of the body's result at token b and lane d
  is the chain  (((x(b,d)·plm(b,i,0) + crm(b,0,i)·res(b,0,d)) + crm(b,1,i)·res(b,1,d)) + crm(b,2,i)·res(b,2,d)) + crm(b,3,i)·res(b,3,d)
  of elements of the point's four input blocks: each load reads its rectangle of a block (row j of the residual
  block, column i of the weights, entry (j, i) of the mixing matrices), each reshape keeps the row-major position,
  each broadcast repeats a per-token weight along the lanes. By associativity that chain is the specification's
  element (`Cert.Spec.Gblk`).
-/
import proofs.«181047_j25056839205321_2_alg».proof.Proof.BodyIdeal
import proofs.«181047_j25056839205321_2_alg».proof.Proof.LibColumnLayout
import proofs.«181047_j25056839205321_2_alg».proof.Proof.LibOuterLayout
import proofs.«181047_j25056839205321_2_alg».proof.Proof.LibPairLayout
import proofs.«181047_j25056839205321_2_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.RowsIdeal

open Cert.KernelIdeal Cert.KernelIdeal.Gen Cert.KernelIdeal.Body
open Idealize.ShloMosaic Idealize.ShloMosaic.ValueIdx

/-- A unit-stride rectangle of 64 tokens, one row and C' lanes at offsets (0, j, k) of a rank-3 block, read at
    (b, u, d): the block's index (b, j, k + d). -/
theorem rect_idx3 {A B C C' : Nat} (j k : Nat)
    (inb : ∀ a, (![0, j, k] : Fin 3 → Nat) a + (⟨3, ![64, 1, C']⟩ : Shape).size a ≤ (⟨3, ![A, B, C]⟩ : Shape).size a)
    (b : Fin 64) (u : Fin 1) (d : Fin C') (p : Fin A) (q : Fin B) (r : Fin C)
    (hp : p.val = b.val) (hq : q.val = j) (hr : r.val = k + d.val) :
    (Rect.unit (s := ⟨3, ![A, B, C]⟩) ![0, j, k] (⟨3, ![64, 1, C']⟩ : Shape).size inb).idx (ix3 b u d) = ix3 p q r := by
  have hu : u.val = 0 := by omega
  funext a
  match a with
  | ⟨0, _⟩ => exact Fin.ext (by show 0 + 1 * b.val = p.val; omega)
  | ⟨1, _⟩ => exact Fin.ext (by show j + 1 * u.val = q.val; omega)
  | ⟨2, _⟩ => exact Fin.ext (by show k + 1 * d.val = r.val; omega)

variable (x : FVec Ideal S64x2560 .bf16) (res : FVec Ideal S64x4x2560 .bf16) (plm : FVec Ideal S64x4x1 .f32) (crm : FVec Ideal S64x4x4 .f32)

/-! ## The loads, each at an index of its rectangle -/

theorem hz2 : (![0, 0] : Fin 2 → Nat) = fun _ => 0 := funext fun a => by match a with | ⟨0, _⟩ => rfl | ⟨1, _⟩ => rfl
theorem ld_x : View.ld (Val := Elt Ideal) (e' := EltTy.bf16) x rX = x :=
  View.ld_unit_zero (Val := Elt Ideal) (e := EltTy.bf16) (S := S64x2560) hz2 inb_S64x2560_S64x2560_0_0 x
theorem ld_res0 (b : Fin 64) (u : Fin 1) (d : Fin 2560) : View.ld (Val := Elt Ideal) (e' := EltTy.bf16) res rR0 (ix3 b u d) = res (ix3 b (0 : Fin 4) d) :=
  congrArg res (rect_idx3 (A := 64) (B := 4) (C := 2560) (C' := 2560) 0 0 inb_S64x4x2560_S64x1x2560_0_0_0 b u d b 0 d rfl rfl (by omega))
theorem ld_res1 (b : Fin 64) (u : Fin 1) (d : Fin 2560) : View.ld (Val := Elt Ideal) (e' := EltTy.bf16) res rR1 (ix3 b u d) = res (ix3 b (1 : Fin 4) d) :=
  congrArg res (rect_idx3 (A := 64) (B := 4) (C := 2560) (C' := 2560) 1 0 inb_S64x4x2560_S64x1x2560_0_1_0 b u d b 1 d rfl rfl (by omega))
theorem ld_res2 (b : Fin 64) (u : Fin 1) (d : Fin 2560) : View.ld (Val := Elt Ideal) (e' := EltTy.bf16) res rR2 (ix3 b u d) = res (ix3 b (2 : Fin 4) d) :=
  congrArg res (rect_idx3 (A := 64) (B := 4) (C := 2560) (C' := 2560) 2 0 inb_S64x4x2560_S64x1x2560_0_2_0 b u d b 2 d rfl rfl (by omega))
theorem ld_res3 (b : Fin 64) (u : Fin 1) (d : Fin 2560) : View.ld (Val := Elt Ideal) (e' := EltTy.bf16) res rR3 (ix3 b u d) = res (ix3 b (3 : Fin 4) d) :=
  congrArg res (rect_idx3 (A := 64) (B := 4) (C := 2560) (C' := 2560) 3 0 inb_S64x4x2560_S64x1x2560_0_3_0 b u d b 3 d rfl rfl (by omega))
theorem ld_plm0 (b : Fin 64) (u d : Fin 1) : View.ld (Val := Elt Ideal) (e' := EltTy.f32) plm rP0 (ix3 b u d) = plm (ix3 b (0 : Fin 4) (0 : Fin 1)) :=
  congrArg plm (rect_idx3 (A := 64) (B := 4) (C := 1) (C' := 1) 0 0 inb_S64x4x1_S64x1x1_0_0_0 b u d b 0 0 rfl rfl (by show (0 : Nat) = 0 + d.val; have := d.isLt; omega))
theorem ld_plm1 (b : Fin 64) (u d : Fin 1) : View.ld (Val := Elt Ideal) (e' := EltTy.f32) plm rP1 (ix3 b u d) = plm (ix3 b (1 : Fin 4) (0 : Fin 1)) :=
  congrArg plm (rect_idx3 (A := 64) (B := 4) (C := 1) (C' := 1) 1 0 inb_S64x4x1_S64x1x1_0_1_0 b u d b 1 0 rfl rfl (by show (0 : Nat) = 0 + d.val; have := d.isLt; omega))
theorem ld_plm2 (b : Fin 64) (u d : Fin 1) : View.ld (Val := Elt Ideal) (e' := EltTy.f32) plm rP2 (ix3 b u d) = plm (ix3 b (2 : Fin 4) (0 : Fin 1)) :=
  congrArg plm (rect_idx3 (A := 64) (B := 4) (C := 1) (C' := 1) 2 0 inb_S64x4x1_S64x1x1_0_2_0 b u d b 2 0 rfl rfl (by show (0 : Nat) = 0 + d.val; have := d.isLt; omega))
theorem ld_plm3 (b : Fin 64) (u d : Fin 1) : View.ld (Val := Elt Ideal) (e' := EltTy.f32) plm rP3 (ix3 b u d) = plm (ix3 b (3 : Fin 4) (0 : Fin 1)) :=
  congrArg plm (rect_idx3 (A := 64) (B := 4) (C := 1) (C' := 1) 3 0 inb_S64x4x1_S64x1x1_0_3_0 b u d b 3 0 rfl rfl (by show (0 : Nat) = 0 + d.val; have := d.isLt; omega))
theorem ld_crm00 (b : Fin 64) (u d : Fin 1) : View.ld (Val := Elt Ideal) (e' := EltTy.f32) crm rC00 (ix3 b u d) = crm (ix3 b (0 : Fin 4) (0 : Fin 4)) :=
  congrArg crm (rect_idx3 (A := 64) (B := 4) (C := 4) (C' := 1) 0 0 inb_S64x4x4_S64x1x1_0_0_0 b u d b 0 0 rfl rfl (by show (0 : Nat) = 0 + d.val; have := d.isLt; omega))
theorem ld_crm01 (b : Fin 64) (u d : Fin 1) : View.ld (Val := Elt Ideal) (e' := EltTy.f32) crm rC01 (ix3 b u d) = crm (ix3 b (0 : Fin 4) (1 : Fin 4)) :=
  congrArg crm (rect_idx3 (A := 64) (B := 4) (C := 4) (C' := 1) 0 1 inb_S64x4x4_S64x1x1_0_0_1 b u d b 0 1 rfl rfl (by show (1 : Nat) = 1 + d.val; have := d.isLt; omega))
theorem ld_crm02 (b : Fin 64) (u d : Fin 1) : View.ld (Val := Elt Ideal) (e' := EltTy.f32) crm rC02 (ix3 b u d) = crm (ix3 b (0 : Fin 4) (2 : Fin 4)) :=
  congrArg crm (rect_idx3 (A := 64) (B := 4) (C := 4) (C' := 1) 0 2 inb_S64x4x4_S64x1x1_0_0_2 b u d b 0 2 rfl rfl (by show (2 : Nat) = 2 + d.val; have := d.isLt; omega))
theorem ld_crm03 (b : Fin 64) (u d : Fin 1) : View.ld (Val := Elt Ideal) (e' := EltTy.f32) crm rC03 (ix3 b u d) = crm (ix3 b (0 : Fin 4) (3 : Fin 4)) :=
  congrArg crm (rect_idx3 (A := 64) (B := 4) (C := 4) (C' := 1) 0 3 inb_S64x4x4_S64x1x1_0_0_3 b u d b 0 3 rfl rfl (by show (3 : Nat) = 3 + d.val; have := d.isLt; omega))
theorem ld_crm10 (b : Fin 64) (u d : Fin 1) : View.ld (Val := Elt Ideal) (e' := EltTy.f32) crm rC10 (ix3 b u d) = crm (ix3 b (1 : Fin 4) (0 : Fin 4)) :=
  congrArg crm (rect_idx3 (A := 64) (B := 4) (C := 4) (C' := 1) 1 0 inb_S64x4x4_S64x1x1_0_1_0 b u d b 1 0 rfl rfl (by show (0 : Nat) = 0 + d.val; have := d.isLt; omega))
theorem ld_crm11 (b : Fin 64) (u d : Fin 1) : View.ld (Val := Elt Ideal) (e' := EltTy.f32) crm rC11 (ix3 b u d) = crm (ix3 b (1 : Fin 4) (1 : Fin 4)) :=
  congrArg crm (rect_idx3 (A := 64) (B := 4) (C := 4) (C' := 1) 1 1 inb_S64x4x4_S64x1x1_0_1_1 b u d b 1 1 rfl rfl (by show (1 : Nat) = 1 + d.val; have := d.isLt; omega))
theorem ld_crm12 (b : Fin 64) (u d : Fin 1) : View.ld (Val := Elt Ideal) (e' := EltTy.f32) crm rC12 (ix3 b u d) = crm (ix3 b (1 : Fin 4) (2 : Fin 4)) :=
  congrArg crm (rect_idx3 (A := 64) (B := 4) (C := 4) (C' := 1) 1 2 inb_S64x4x4_S64x1x1_0_1_2 b u d b 1 2 rfl rfl (by show (2 : Nat) = 2 + d.val; have := d.isLt; omega))
theorem ld_crm13 (b : Fin 64) (u d : Fin 1) : View.ld (Val := Elt Ideal) (e' := EltTy.f32) crm rC13 (ix3 b u d) = crm (ix3 b (1 : Fin 4) (3 : Fin 4)) :=
  congrArg crm (rect_idx3 (A := 64) (B := 4) (C := 4) (C' := 1) 1 3 inb_S64x4x4_S64x1x1_0_1_3 b u d b 1 3 rfl rfl (by show (3 : Nat) = 3 + d.val; have := d.isLt; omega))
theorem ld_crm20 (b : Fin 64) (u d : Fin 1) : View.ld (Val := Elt Ideal) (e' := EltTy.f32) crm rC20 (ix3 b u d) = crm (ix3 b (2 : Fin 4) (0 : Fin 4)) :=
  congrArg crm (rect_idx3 (A := 64) (B := 4) (C := 4) (C' := 1) 2 0 inb_S64x4x4_S64x1x1_0_2_0 b u d b 2 0 rfl rfl (by show (0 : Nat) = 0 + d.val; have := d.isLt; omega))
theorem ld_crm21 (b : Fin 64) (u d : Fin 1) : View.ld (Val := Elt Ideal) (e' := EltTy.f32) crm rC21 (ix3 b u d) = crm (ix3 b (2 : Fin 4) (1 : Fin 4)) :=
  congrArg crm (rect_idx3 (A := 64) (B := 4) (C := 4) (C' := 1) 2 1 inb_S64x4x4_S64x1x1_0_2_1 b u d b 2 1 rfl rfl (by show (1 : Nat) = 1 + d.val; have := d.isLt; omega))
theorem ld_crm22 (b : Fin 64) (u d : Fin 1) : View.ld (Val := Elt Ideal) (e' := EltTy.f32) crm rC22 (ix3 b u d) = crm (ix3 b (2 : Fin 4) (2 : Fin 4)) :=
  congrArg crm (rect_idx3 (A := 64) (B := 4) (C := 4) (C' := 1) 2 2 inb_S64x4x4_S64x1x1_0_2_2 b u d b 2 2 rfl rfl (by show (2 : Nat) = 2 + d.val; have := d.isLt; omega))
theorem ld_crm23 (b : Fin 64) (u d : Fin 1) : View.ld (Val := Elt Ideal) (e' := EltTy.f32) crm rC23 (ix3 b u d) = crm (ix3 b (2 : Fin 4) (3 : Fin 4)) :=
  congrArg crm (rect_idx3 (A := 64) (B := 4) (C := 4) (C' := 1) 2 3 inb_S64x4x4_S64x1x1_0_2_3 b u d b 2 3 rfl rfl (by show (3 : Nat) = 3 + d.val; have := d.isLt; omega))
theorem ld_crm30 (b : Fin 64) (u d : Fin 1) : View.ld (Val := Elt Ideal) (e' := EltTy.f32) crm rC30 (ix3 b u d) = crm (ix3 b (3 : Fin 4) (0 : Fin 4)) :=
  congrArg crm (rect_idx3 (A := 64) (B := 4) (C := 4) (C' := 1) 3 0 inb_S64x4x4_S64x1x1_0_3_0 b u d b 3 0 rfl rfl (by show (0 : Nat) = 0 + d.val; have := d.isLt; omega))
theorem ld_crm31 (b : Fin 64) (u d : Fin 1) : View.ld (Val := Elt Ideal) (e' := EltTy.f32) crm rC31 (ix3 b u d) = crm (ix3 b (3 : Fin 4) (1 : Fin 4)) :=
  congrArg crm (rect_idx3 (A := 64) (B := 4) (C := 4) (C' := 1) 3 1 inb_S64x4x4_S64x1x1_0_3_1 b u d b 3 1 rfl rfl (by show (1 : Nat) = 1 + d.val; have := d.isLt; omega))
theorem ld_crm32 (b : Fin 64) (u d : Fin 1) : View.ld (Val := Elt Ideal) (e' := EltTy.f32) crm rC32 (ix3 b u d) = crm (ix3 b (3 : Fin 4) (2 : Fin 4)) :=
  congrArg crm (rect_idx3 (A := 64) (B := 4) (C := 4) (C' := 1) 3 2 inb_S64x4x4_S64x1x1_0_3_2 b u d b 3 2 rfl rfl (by show (2 : Nat) = 2 + d.val; have := d.isLt; omega))
theorem ld_crm33 (b : Fin 64) (u d : Fin 1) : View.ld (Val := Elt Ideal) (e' := EltTy.f32) crm rC33 (ix3 b u d) = crm (ix3 b (3 : Fin 4) (3 : Fin 4)) :=
  congrArg crm (rect_idx3 (A := 64) (B := 4) (C := 4) (C' := 1) 3 3 inb_S64x4x4_S64x1x1_0_3_3 b u d b 3 3 rfl rfl (by show (3 : Nat) = 3 + d.val; have := d.isLt; omega))

/-! ## The rows -/

theorem row0_apply (b : Fin 64) (d : Fin 2560) :
    row0 (F := Ideal) x res plm crm (ix3 b (0 : Fin 1) d) = Cert.Spec.Gblk x res plm crm b 0 d := by
  unfold Cert.Spec.Gblk
  rw [← Cert.Spec.chain_eq_mixAt]
  unfold row0 rw3 k0_pay8 k0_pay7 k0_pay6 k0_pay5 k0_pay4 k0_pay3 k0_pay2
  simp only [OuterLayout.shapeCast_ac_a1c_apply, Cert.PairLayout.shapeCast_a1c_ac_apply, Cert.ColumnLayout.broadcastTo_a1_ab_apply,
    truncf_apply, extf_apply, addf_apply, mulf_apply, ld_x, ld_res0, ld_res1, ld_res2, ld_res3, ld_plm0, ld_plm1, ld_plm2, ld_plm3, ld_crm00, ld_crm01, ld_crm02, ld_crm03, ld_crm10, ld_crm11, ld_crm12, ld_crm13, ld_crm20, ld_crm21, ld_crm22, ld_crm23, ld_crm30, ld_crm31, ld_crm32, ld_crm33]
  rw [ld_plm0 plm b 0 0, ld_crm00 crm b 0 0, ld_crm10 crm b 0 0, ld_crm20 crm b 0 0, ld_crm30 crm b 0 0, ld_res0 res b 0 d, ld_res1 res b 0 d, ld_res2 res b 0 d, ld_res3 res b 0 d]

theorem row1_apply (b : Fin 64) (d : Fin 2560) :
    row1 (F := Ideal) x res plm crm (ix3 b (0 : Fin 1) d) = Cert.Spec.Gblk x res plm crm b 1 d := by
  unfold Cert.Spec.Gblk
  rw [← Cert.Spec.chain_eq_mixAt]
  unfold row1 xw rw0 rw1 rw2 rw3 k0_pay10 k0_pay9 k0_pay6 k0_pay5 k0_pay4 k0_pay3 k0_pay2
  simp only [OuterLayout.shapeCast_ac_a1c_apply, Cert.PairLayout.shapeCast_a1c_ac_apply, Cert.ColumnLayout.broadcastTo_a1_ab_apply,
    truncf_apply, extf_apply, addf_apply, mulf_apply, ld_x, ld_res0, ld_res1, ld_res2, ld_res3, ld_plm0, ld_plm1, ld_plm2, ld_plm3, ld_crm00, ld_crm01, ld_crm02, ld_crm03, ld_crm10, ld_crm11, ld_crm12, ld_crm13, ld_crm20, ld_crm21, ld_crm22, ld_crm23, ld_crm30, ld_crm31, ld_crm32, ld_crm33]
  rw [ld_plm1 plm b 0 0, ld_crm01 crm b 0 0, ld_crm11 crm b 0 0, ld_crm21 crm b 0 0, ld_crm31 crm b 0 0, ld_res0 res b 0 d, ld_res1 res b 0 d, ld_res2 res b 0 d, ld_res3 res b 0 d]

theorem row2_apply (b : Fin 64) (d : Fin 2560) :
    row2 (F := Ideal) x res plm crm (ix3 b (0 : Fin 1) d) = Cert.Spec.Gblk x res plm crm b 2 d := by
  unfold Cert.Spec.Gblk
  rw [← Cert.Spec.chain_eq_mixAt]
  unfold row2 xw rw0 rw1 rw2 rw3 k0_pay11 k0_pay6 k0_pay5 k0_pay4 k0_pay3 k0_pay2
  simp only [OuterLayout.shapeCast_ac_a1c_apply, Cert.PairLayout.shapeCast_a1c_ac_apply, Cert.ColumnLayout.broadcastTo_a1_ab_apply,
    truncf_apply, extf_apply, addf_apply, mulf_apply, ld_x, ld_res0, ld_res1, ld_res2, ld_res3, ld_plm0, ld_plm1, ld_plm2, ld_plm3, ld_crm00, ld_crm01, ld_crm02, ld_crm03, ld_crm10, ld_crm11, ld_crm12, ld_crm13, ld_crm20, ld_crm21, ld_crm22, ld_crm23, ld_crm30, ld_crm31, ld_crm32, ld_crm33]
  rw [ld_plm2 plm b 0 0, ld_crm02 crm b 0 0, ld_crm12 crm b 0 0, ld_crm22 crm b 0 0, ld_crm32 crm b 0 0, ld_res0 res b 0 d, ld_res1 res b 0 d, ld_res2 res b 0 d, ld_res3 res b 0 d]

theorem row3_apply (b : Fin 64) (d : Fin 2560) :
    row3 (F := Ideal) x res plm crm (ix3 b (0 : Fin 1) d) = Cert.Spec.Gblk x res plm crm b 3 d := by
  unfold Cert.Spec.Gblk
  rw [← Cert.Spec.chain_eq_mixAt]
  unfold row3 xw rw0 rw1 rw2 rw3 k0_pay1 k0_pay12 k0_pay6 k0_pay5 k0_pay4 k0_pay3 k0_pay2
  simp only [OuterLayout.shapeCast_ac_a1c_apply, Cert.PairLayout.shapeCast_a1c_ac_apply, Cert.ColumnLayout.broadcastTo_a1_ab_apply,
    truncf_apply, extf_apply, addf_apply, mulf_apply, ld_x, ld_res0, ld_res1, ld_res2, ld_res3, ld_plm0, ld_plm1, ld_plm2, ld_plm3, ld_crm00, ld_crm01, ld_crm02, ld_crm03, ld_crm10, ld_crm11, ld_crm12, ld_crm13, ld_crm20, ld_crm21, ld_crm22, ld_crm23, ld_crm30, ld_crm31, ld_crm32, ld_crm33]
  rw [ld_plm3 plm b 0 0, ld_crm03 crm b 0 0, ld_crm13 crm b 0 0, ld_crm23 crm b 0 0, ld_crm33 crm b 0 0, ld_res0 res b 0 d, ld_res1 res b 0 d, ld_res2 res b 0 d, ld_res3 res b 0 d]

/-- The body's result block at (b, i, d): the specification's element from the point's four input blocks. -/
theorem out4_apply (b : Fin 64) (i : Fin 4) (d : Fin 2560) :
    out4 (F := Ideal) x res plm crm (ix3 b i d) = Cert.Spec.Gblk x res plm crm b i d := by
  unfold out4
  match i with
  | ⟨0, _⟩ => exact (PairedRows.stack4_row0 _ _ _ _ b d).trans (row0_apply x res plm crm b d)
  | ⟨1, _⟩ => exact (PairedRows.stack4_row1 _ _ _ _ b d).trans (row1_apply x res plm crm b d)
  | ⟨2, _⟩ => exact (PairedRows.stack4_row2 _ _ _ _ b d).trans (row2_apply x res plm crm b d)
  | ⟨3, _⟩ => exact (PairedRows.stack4_row3 _ _ _ _ b d).trans (row3_apply x res plm crm b d)

end Cert.KernelIdeal.RowsIdeal

end
-- ==== Proof.KernelValue.lean ====
/-
  From blocks to the array: the idealized kernel's result is the specification of its arguments.

  Grid point t works on tokens 64·t … 64·t + 63: every window's block index at t is (t, 0[, 0]) (the printed index
  maps, decided over the 128 points). So the block the body leaves in the output window's buffer at t — the
  specification's element from the point's four input blocks at each (b, i, d) — is the specification of the
  whole argument arrays at (64·t + b, i, d), that is, block t of `Cert.Spec.G`. Token r of the array lies in the
  block of point r / 64, so the 128 blocks cover the output array, and after the run it holds `G` of the
  arguments; the arguments themselves are only staged in, never written back.
-/
import proofs.«181047_j25056839205321_2_alg».proof.Proof.RowsIdeal
import Idealize.ShloMosaic.Lib.Pipeline.Value

set_option maxRecDepth 16384

noncomputable section

namespace Cert.KernelIdeal.KernelValue

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the grid: at point `t` every window's block index is `t` on the token axis and 0 on
    the others. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- What point `t` writes back is block `t` of the specification of the argument arrays as the region finds them. -/
theorem flushed_eq (c : Dev nD) (t : Fin cfg0.N) :
    (dats m 0 c).flushed 4 t = ((cfg0.win 4).blk t).view.read (Elt Ideal)
      (Cert.Spec.G (V m c main_arg0) (V m c main_arg1) (V m c main_arg2) (V m c main_arg3)) := by
  show (cfg0.win 4).cut (grid0.coords t) ((dats m 0 c).after 4 t) = _
  rw [after0_4]
  obtain ⟨e00, e01, e10, e11, e12, e20, e21, e22, e30, e31, e32, e40, e41, e42⟩ := idx_facts t
  have hN : grid0.N = 128 := N_0
  have ht : t.val < 128 := by have h : t.val < grid0.N := t.isLt; omega
  funext j
  obtain ⟨b, i, d, rfl⟩ : ∃ (b : Fin 64) (i : Fin 4) (d : Fin 2560), j = ix3 b i d := ⟨j 0, j 1, j 2, eq_ix3 j⟩
  have hb : b.val < 64 := b.isLt
  have hi : i.val < 4 := i.isLt
  have hd : d.val < 2560 := d.isLt
  have hp : t.val * 64 + b.val < 8192 := by omega
  have hE : ((cfg0.win 4).blk t).view.emb (ix3 b i d) = ix3 (⟨t.val * 64 + b.val, hp⟩ : Fin 8192) i d := by
    funext a; apply Fin.ext
    match a with
    | ⟨0, _⟩ => show win0_4.index t (0 : Fin 3) * 64 + 1 * b.val = t.val * 64 + b.val; omega
    | ⟨1, _⟩ => show win0_4.index t (1 : Fin 3) * 4 + 1 * i.val = i.val; omega
    | ⟨2, _⟩ => show win0_4.index t (2 : Fin 3) * 2560 + 1 * d.val = d.val; omega
  show out4 (iblk m c 0 t) (iblk m c 1 t) (iblk m c 2 t) (iblk m c 3 t) (ix3 b i d)
    = Cert.Spec.G (V m c main_arg0) (V m c main_arg1) (V m c main_arg2) (V m c main_arg3) (((cfg0.win 4).blk t).view.emb (ix3 b i d))
  rw [hE]
  refine (RowsIdeal.out4_apply (iblk m c 0 t) (iblk m c 1 t) (iblk m c 2 t) (iblk m c 3 t) b i d).trans ?_
  have hx : iblk m c 0 t (ix2 b d) = V m c main_arg0 (ix2 (⟨t.val * 64 + b.val, hp⟩ : Fin 8192) d) := by
    show V m c main_arg0 (((cfg0.win 0).blk t).view.emb (ix2 b d)) = V m c main_arg0 (ix2 (⟨t.val * 64 + b.val, hp⟩ : Fin 8192) d)
    refine congrArg (V m c main_arg0) (funext fun a => Fin.ext ?_)
    match a with
    | ⟨0, _⟩ => show win0_0.index t (0 : Fin 2) * 64 + 1 * b.val = t.val * 64 + b.val; omega
    | ⟨1, _⟩ => show win0_0.index t (1 : Fin 2) * 2560 + 1 * d.val = d.val; omega
  have hr : ∀ k : Fin 4, iblk m c 1 t (ix3 b k d) = V m c main_arg1 (ix3 (⟨t.val * 64 + b.val, hp⟩ : Fin 8192) k d) := fun k => by
    show V m c main_arg1 (((cfg0.win 1).blk t).view.emb (ix3 b k d)) = V m c main_arg1 (ix3 (⟨t.val * 64 + b.val, hp⟩ : Fin 8192) k d)
    refine congrArg (V m c main_arg1) (funext fun a => Fin.ext ?_)
    match a with
    | ⟨0, _⟩ => show win0_1.index t (0 : Fin 3) * 64 + 1 * b.val = t.val * 64 + b.val; omega
    | ⟨1, _⟩ => show win0_1.index t (1 : Fin 3) * 4 + 1 * k.val = k.val; omega
    | ⟨2, _⟩ => show win0_1.index t (2 : Fin 3) * 2560 + 1 * d.val = d.val; omega
  have hpl : iblk m c 2 t (ix3 b i (0 : Fin 1)) = V m c main_arg2 (ix3 (⟨t.val * 64 + b.val, hp⟩ : Fin 8192) i (0 : Fin 1)) := by
    show V m c main_arg2 (((cfg0.win 2).blk t).view.emb (ix3 b i (0 : Fin 1))) = V m c main_arg2 (ix3 (⟨t.val * 64 + b.val, hp⟩ : Fin 8192) i (0 : Fin 1))
    refine congrArg (V m c main_arg2) (funext fun a => Fin.ext ?_)
    match a with
    | ⟨0, _⟩ => show win0_2.index t (0 : Fin 3) * 64 + 1 * b.val = t.val * 64 + b.val; omega
    | ⟨1, _⟩ => show win0_2.index t (1 : Fin 3) * 4 + 1 * i.val = i.val; omega
    | ⟨2, _⟩ => show win0_2.index t (2 : Fin 3) * 1 + 1 * 0 = 0; omega
  have hc : ∀ k : Fin 4, iblk m c 3 t (ix3 b k i) = V m c main_arg3 (ix3 (⟨t.val * 64 + b.val, hp⟩ : Fin 8192) k i) := fun k => by
    show V m c main_arg3 (((cfg0.win 3).blk t).view.emb (ix3 b k i)) = V m c main_arg3 (ix3 (⟨t.val * 64 + b.val, hp⟩ : Fin 8192) k i)
    refine congrArg (V m c main_arg3) (funext fun a => Fin.ext ?_)
    match a with
    | ⟨0, _⟩ => show win0_3.index t (0 : Fin 3) * 64 + 1 * b.val = t.val * 64 + b.val; omega
    | ⟨1, _⟩ => show win0_3.index t (1 : Fin 3) * 4 + 1 * k.val = k.val; omega
    | ⟨2, _⟩ => show win0_3.index t (2 : Fin 3) * 4 + 1 * i.val = i.val; omega
  exact congr (congr (congr (congrArg Cert.Spec.mixAt hx) hpl) (funext hc)) (funext hr)

/-- An index of the array is in point `t`'s block iff each coordinate is in the block's range on its axis. -/
theorem mem_blk (t : Fin cfg0.N) (i : S8192x4x2560.Idx) :
    i ∈ ((cfg0.win 4).blk t).view.set ↔ ∀ a : Fin 3, win0_4.index t a * S64x4x2560.size a ≤ (i a).val
      ∧ (i a).val < win0_4.index t a * S64x4x2560.size a + S64x4x2560.size a := by
  show i ∈ ((View.whole main_v0).slice (win0_4.rect t)).set ↔ _
  rw [View.set_slice_whole, Rect.mem_set_unit]
  exact Iff.rfl

/-- Every index of the output array is in the block of the point its token belongs to. -/
theorem cover (i : S8192x4x2560.Idx) :
    ∃ t : Fin cfg0.N, (cfg0.win 4).flush t = true ∧ i ∈ ((cfg0.win 4).blk t).view.set := by
  have hi0 : (i 0).val < 8192 := (i 0).isLt
  have hi1 : (i 1).val < 4 := (i 1).isLt
  have hi2 : (i 2).val < 2560 := (i 2).isLt
  have hN : grid0.N = 128 := N_0
  have hq : (i 0).val / 64 < grid0.N := by omega
  obtain ⟨-, -, -, -, -, -, -, -, -, -, -, e40, e41, e42⟩ := idx_facts (⟨(i 0).val / 64, hq⟩ : Fin cfg0.N)
  have e40' : win0_4.index (⟨(i 0).val / 64, hq⟩ : Fin cfg0.N) (0 : Fin 3) = (i 0).val / 64 := e40
  refine ⟨⟨(i 0).val / 64, hq⟩, flush0_4 _, ?_⟩
  rw [mem_blk]
  intro a
  match a with
  | ⟨0, _⟩ =>
    show win0_4.index (⟨(i 0).val / 64, hq⟩ : Fin cfg0.N) (0 : Fin 3) * 64 ≤ (i 0).val
      ∧ (i 0).val < win0_4.index (⟨(i 0).val / 64, hq⟩ : Fin cfg0.N) (0 : Fin 3) * 64 + 64
    omega
  | ⟨1, _⟩ =>
    show win0_4.index (⟨(i 0).val / 64, hq⟩ : Fin cfg0.N) (1 : Fin 3) * 4 ≤ (i 1).val
      ∧ (i 1).val < win0_4.index (⟨(i 0).val / 64, hq⟩ : Fin cfg0.N) (1 : Fin 3) * 4 + 4
    omega
  | ⟨2, _⟩ =>
    show win0_4.index (⟨(i 0).val / 64, hq⟩ : Fin cfg0.N) (2 : Fin 3) * 2560 ≤ (i 2).val
      ∧ (i 2).val < win0_4.index (⟨(i 0).val / 64, hq⟩ : Fin cfg0.N) (2 : Fin 3) * 2560 + 2560
    omega

/-- The output array after the run: the specification of the argument arrays. -/
theorem final (c : Dev nD) : (dats m 0 c).arrAt 4 cfg0.N
    = Cert.Spec.G (V m c main_arg0) (V m c main_arg1) (V m c main_arg2) (V m c main_arg3) :=
  (dats m 0 c).arrAt_eq_of_cover 4 _ (fun t _ => flushed_eq m c t) cover

/-- The run of the idealized kernel: its result array ends at the specification of the launch contents of its
    arguments, and the arguments end unchanged. -/
theorem run : θ_run defs (onTc (τ := τ) (main (F := Ideal))) ⟨m, fun _ => 0, ρ⟩ fun r => ∀ c : Dev nD,
      r.2.mem ((c : Thread nD τ).loc main_v0) = Cert.Spec.G (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KernelValue

end
-- ==== Proof.RefIsG.lean ====
/-
  The reference computes the specification.

  Read at an index (t, i, d), the reference's result is its last operation's: the sum of the product
  x(t, d) · plm(t, i, 0) — x laid along the stream axis, plm along the lanes — and the contraction
  Σ_k crm(t, k, i) · res(t, k, d) over the four residual streams, the conversions between float formats the
  identity on the extended reals. That is `Cert.Spec.G` of the four arguments.
-/
import proofs.«181047_j25056839205321_2_alg».proof.Proof.Gen.ReferenceIdeal.Read
import proofs.«181047_j25056839205321_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

theorem result_eq_G (x0 : (⟨S8192x2560, .bf16⟩ : BufTy).Contents (Elt Ideal)) (x1 : (⟨S8192x4x2560, .bf16⟩ : BufTy).Contents (Elt Ideal))
    (x2 : (⟨S8192x4x1, .f32⟩ : BufTy).Contents (Elt Ideal)) (x3 : (⟨S8192x4x4, .f32⟩ : BufTy).Contents (Elt Ideal)) :
    val_main_v8 (F := Ideal) x0 x1 x2 x3 = Cert.Spec.G x0 x1 x2 x3 := by
  funext i
  have e1 : idx_main_v3 (idx_main_v4 i) = ix2 (i 0) (i 2) :=
    funext fun a => Fin.ext (by match a with | ⟨0, _⟩ => rfl | ⟨1, _⟩ => rfl)
  have e2 : idx_main_v5 i = ix3 (i 0) (i 1) (0 : Fin 1) :=
    funext fun a => Fin.ext (by match a with | ⟨0, _⟩ => rfl | ⟨1, _⟩ => rfl | ⟨2, _⟩ => rfl)
  have e3 : ∀ k : Fin 4, lidx_main_v1 i k = ix3 (i 0) k (i 1) := fun k =>
    funext fun a => Fin.ext (by match a with | ⟨0, _⟩ => rfl | ⟨1, _⟩ => rfl | ⟨2, _⟩ => rfl)
  have e4 : ∀ k : Fin 4, ridx_main_v1 i k = ix3 (i 0) k (i 2) := fun k =>
    funext fun a => Fin.ext (by match a with | ⟨0, _⟩ => rfl | ⟨1, _⟩ => rfl | ⟨2, _⟩ => rfl)
  rw [val_main_v8_apply, val_main_v7_apply, val_main_v6_apply, val_main_v4_apply, val_main_v3_apply, val_main_v2_apply,
    val_main_v5_apply, val_main_v1_apply]
  simp only [val_main_v0_apply, e1, e2, e3, e4, Ideal.truncf_def, Ideal.extf_def, Ideal.addf_def, Ideal.mulf_def]
  rfl

end Cert.ReferenceIdeal.RefValue

end
-- ==== Proof.lean ====
/-
  out[t, i, d] = x[t, d] · plm[t, i, 0] + Σ_j crm[t, j, i] · res[t, j, d]: a Pallas kernel over blocks of 64 tokens
  against the jnp reference (a broadcast product plus an einsum), equal on the extended reals.

  The kernel's grid has 128 points; at each the body reads its four input blocks and writes the four output
  streams as rows of the output block, each row by a read-modify-write of the pair of rows it shares memory words
  with. What the block holds afterwards is the four rows, whatever it held before (Proof/LibPairedRows.lean,
  Proof/BodyIdeal.lean and, for the program as printed, Proof/BodyBits.lean); from that the three frames: each
  program runs to its end, nothing faults, the argument arrays end unchanged.
  For the value: each row is the chain ((((x·plm + c₀·r₀) + c₁·r₁) + c₂·r₂) + c₃·r₃) (Proof/RowsIdeal.lean), the
  reference is x·plm + Σ_j c_j·r_j (Proof/RefIsG.lean), equal by associativity of + on the extended reals
  (Proof/Spec.lean) — no use of the inputs' finiteness —, and the 128 blocks tile the output array
  (Proof/KernelValue.lean). The idealization rewrote nothing, so `preserves` has no conjunct.
-/
import proofs.«181047_j25056839205321_2_alg».proof.Defs
import proofs.«181047_j25056839205321_2_alg».proof.Proof.Gen.Kernel
import proofs.«181047_j25056839205321_2_alg».proof.Proof.Gen.KernelIdeal
import proofs.«181047_j25056839205321_2_alg».proof.Proof.Gen.ReferenceIdeal
import proofs.«181047_j25056839205321_2_alg».proof.Proof.Gen.ReferenceIdeal.Run
import proofs.«181047_j25056839205321_2_alg».proof.Proof.Gen.ReferenceIdeal.Read
import proofs.«181047_j25056839205321_2_alg».proof.Proof.Gen.Pre_finite_inputs
import proofs.«181047_j25056839205321_2_alg».proof.Proof.BodyBits
import proofs.«181047_j25056839205321_2_alg».proof.Proof.KernelValue
import proofs.«181047_j25056839205321_2_alg».proof.Proof.RefIsG
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the specification of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq_G,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
